-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S1x64 : Shape := ⟨2, ![1, 64]⟩
abbrev S1x1 : Shape := ⟨2, ![1, 1]⟩
abbrev S64x64 : Shape := ⟨2, ![64, 64]⟩

abbrev nBuf : Space → Nat
  | .hbm => 106
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S_, .f32⟩
  | .hbm, ⟨93, _⟩ => ⟨S64x128, .f32⟩
  | .hbm, ⟨94, _⟩ => ⟨S100000x1, .i32⟩
  | .hbm, ⟨95, _⟩ => ⟨S64x128, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S64, .f32⟩
  | .hbm, ⟨100, _⟩ => ⟨S100000x1, .i32⟩
  | .hbm, ⟨101, _⟩ => ⟨S64, .f32⟩
  | .hbm, ⟨102, _⟩ => ⟨S64x1, .f32⟩
  | .hbm, ⟨103, _⟩ => ⟨S1x64, .f32⟩
  | .hbm, ⟨104, _⟩ => ⟨S1x1, .f32⟩
  | .hbm, ⟨105, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S64x128, .f32⟩
  | .local _ .vmem, ⟨21, _⟩ => ⟨S64x1, .f32⟩
  | .local _ .vmem, ⟨22, _⟩ => ⟨S128x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  shapeCasts_S64_S64x1 : S64.ShapeCasts S64x1
  shapeCasts_S64_S1x64 : S64.ShapeCasts S1x64
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S64x1_S64x128 : S64x1.Broadcasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x1.size a ≤ S64x1.size a
  hwx4_6 : ∀ i : grid4.Coords, EltTy.bits .f32 = 32 ∨ (Rect.block (s := S64x1) S64x1.size (cc4_transform_6 i) (hinb4_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v71) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S64x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64x64 : Shape := ⟨2, ![64, 64]⟩
abbrev S1x64 : Shape := ⟨2, ![1, 64]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x128, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S1700000x1, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S64x128, .f32⟩
  | 118 => ⟨S100000x1, .i32⟩
  | 119 => ⟨S64x128, .f32⟩
  | 120 => ⟨S_, .f32⟩
  | 121 => ⟨S100000, .f32⟩
  | 122 => ⟨S_, .f32⟩
  | 123 => ⟨S64, .f32⟩
  | 124 => ⟨S100000x1, .i32⟩
  | 125 => ⟨S64, .f32⟩
  | 126 => ⟨S_, .f32⟩
  | 127 => ⟨S64, .f32⟩
  | _ => ⟨S100000x128, .f32⟩

abbrev hbmTy0_1 (i : Nat) : BufTy := match i % 128 with
  | 0 => ⟨S64, .f32⟩
  | 1 => ⟨S64x1, .f32⟩
  | 2 => ⟨S64x128, .f32⟩
  | 3 => ⟨S64x128, .f32⟩
  | 4 => ⟨S64x64, .f32⟩
  | 5 => ⟨S1x64, .f32⟩
  | 6 => ⟨S64x64, .f32⟩
  | 7 => ⟨S64x64, .f32⟩
  | 8 => ⟨S_, .f32⟩
  | 9 => ⟨S64x64, .f32⟩
  | 10 => ⟨S64x64, .f32⟩
  | 11 => ⟨S64x1, .f32⟩
  | 12 => ⟨S1x1, .f32⟩
  | 13 => ⟨S64x1, .f32⟩
  | 14 => ⟨S64x1, .f32⟩
  | 15 => ⟨S64x1, .f32⟩
  | 16 => ⟨S64x1, .f32⟩
  | 17 => ⟨S_, .f32⟩
  | 18 => ⟨S64x1, .f32⟩
  | 19 => ⟨S64x1, .f32⟩
  | 20 => ⟨S_, .f32⟩
  | 21 => ⟨S64x1, .f32⟩
  | 22 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_14 : Ref sig .tc := ⟨.hbm, 98, rfl⟩
abbrev main_v67 : Ref sig .tc := ⟨.hbm, 99, rfl⟩
abbrev main_v68 : Ref sig .tc := ⟨.hbm, 100, rfl⟩
abbrev main_c_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_20 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_call2_cst : Ref sig .tc := ⟨.hbm, 136, rfl⟩
abbrev main_call2_v0 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_21 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KernelRun.lean ====
/-
  The kernel program's run with its result named.

  Every weakly fair execution of the program from a memory with zero counters terminates, nothing faulting, with the
  argument arrays as launched and the result buffer at what the last of the program's eleven segments leaves there:
  the contents at the last boundary of the fold of host stretches and regions (`W11`), read at the result buffer. The
  launch, the segments and the chain of thread states are those of the frame run; only the post reads one more buffer
  of the final thread state.
-/
import proofs.«169793_j61229053772176_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v74) = W11 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v74 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Run

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.Tiles.lean ====
/-
  What one tile of each tiled kernel body stores, read at an entry, on the extended reals.

  The two feature transforms multiply a [5000, 128] tile of rows by the whole [128, 128] weight matrix into a zero
  accumulator: entry (p, q) of the stored tile is the sum over k of tile(p, k) · weight(k, q); the narrowing of both
  operands to a shorter float format before the product is the identity on extended reals. The two bias steps add the
  [1, 128] bias row to every row of a [5000, 128] tile, the first one followed by the maximum with zero: entry (p, q)
  is tile(p, q) + bias(0, q), or the maximum of that and zero.
-/
import proofs.«169793_j61229053772176_1_alg».proof.Proof.Gen.KernelIdeal.Skeleton
import proofs.«169793_j61229053772176_1_alg».proof.Proof.LibMatmul2
import Idealize.ShloMosaic.Lib.ValueLayout
import Idealize.ShloMosaic.Lib.Pipeline.Value

noncomputable section

namespace Cert.KernelIdeal.Tiles

open Idealize.ShloMosaic Idealize.ShloMosaic.ValueIdx Cert.KernelIdeal Cert.KernelIdeal.Gen

/-- The tile product's dimension numbers are those of a plain matrix product. -/
theorem tileDot_eq : dot_S5000x128_S128x128_S5000x128_1_0_0_1_n_n
    = Cert.Lib.plain2 (A := 5000) (K := 128) (B := 128) dot_S5000x128_S128x128_S5000x128_1_0_0_1_n_n_wf := rfl

/-- First feature transform: entry (p, q) of the stored tile is the row p of the tile against column q of the weights. -/
theorem transform1_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  rw [tileDot_eq]
  exact Cert.Lib.matmul2_zero_apply _ (truncf .bf16 x bitsLt_bf16_f32) (truncf .bf16 w bitsLt_bf16_f32) p q

/-- Second feature transform: the same product (the tile passes through an identity reshape first). -/
theorem transform2_apply (x : FVec Ideal S5000x128 .f32) (w : FVec Ideal S128x128 .f32) (p : Fin 5000) (q : Fin 128) :
    k2_pay1 (F := Ideal) x w (ix2 p q) = ∑ k : Fin 128, x (ix2 p k) * w (ix2 k q) := by
  unfold k2_pay1
  rw [tileDot_eq, shapeCast_self]
  exact Cert.Lib.matmul2_zero_apply _ (truncf .bf16 x bitsLt_bf16_f32) (truncf .bf16 w bitsLt_bf16_f32) p q

/-- First bias step: entry (p, q) is the maximum of tile(p, q) + bias(0, q) and zero. -/
theorem biasRelu_apply (x : FVec Ideal S5000x128 .f32) (b : FVec Ideal S1x128 .f32) (p : Fin 5000) (q : Fin 128) :
    k1_pay1 (F := Ideal) x b (ix2 p q)
      = max (x (ix2 p q) + b (ix2 (0 : Fin 1) q)) (Ideal.ofBits .f32 0x00000000#32) := by
  unfold k1_pay1
  rw [maximumf_apply, addf_apply, shapeCast_self, shapeCast_self, broadcastTo_1b_ab_apply, broadcast_apply]
  rfl

/-- Second bias step: entry (p, q) is tile(p, q) + bias(0, q). -/
theorem bias_apply (x : FVec Ideal S5000x128 .f32) (b : FVec Ideal S1x128 .f32) (p : Fin 5000) (q : Fin 128) :
    k3_pay1 (F := Ideal) x b (ix2 p q) = x (ix2 p q) + b (ix2 (0 : Fin 1) q) := by
  unfold k3_pay1
  rw [addf_apply, shapeCast_self, shapeCast_self, broadcastTo_1b_ab_apply]

end Cert.KernelIdeal.Tiles

end
-- ==== Proof.Spec.lean ====
/-
  The three tiled steps as functions of whole arrays, entry by entry, on the extended reals.

  `matRows x w` at (n, q) is the sum over k of x(n, k) · w(k, q): every row of x through the weights.
  `rowBias u r` at (n, q) is u(n, q) + r(0, q); `rowBiasRelu u r` is the maximum of that and zero.
  A tile of rows of the result depends only on the same rows of the first operand, which is why a kernel may compute
  it tile by tile.
-/
import Idealize.ShloMosaic.PureOps.Ideal
import Idealize.ShloMosaic.Lib.ValueIdx

noncomputable section

namespace Cert.Spec

open Idealize.ShloMosaic Idealize.ShloMosaic.ValueIdx

/-- Every row of `x` through the weights `w`. -/
def matRows (x : FVec Ideal ⟨2, ![100000, 128]⟩ .f32) (w : FVec Ideal ⟨2, ![128, 128]⟩ .f32) :
    FVec Ideal ⟨2, ![100000, 128]⟩ .f32 :=
  fun i => ∑ k : Fin 128, x (ix2 (i 0) k) * w (ix2 k (i 1))

/-- A bias row added to every row. -/
def rowBias (u : FVec Ideal ⟨2, ![100000, 128]⟩ .f32) (r : FVec Ideal ⟨2, ![1, 128]⟩ .f32) :
    FVec Ideal ⟨2, ![100000, 128]⟩ .f32 :=
  fun i => u i + r (ix2 (0 : Fin 1) (i 1))

/-- A bias row added to every row, then the maximum with zero. -/
def rowBiasRelu (u : FVec Ideal ⟨2, ![100000, 128]⟩ .f32) (r : FVec Ideal ⟨2, ![1, 128]⟩ .f32) :
    FVec Ideal ⟨2, ![100000, 128]⟩ .f32 :=
  fun i => max (u i + r (ix2 (0 : Fin 1) (i 1))) (Ideal.ofBits .f32 0x00000000#32)

/-- A tile whose rows are rows of `x`, against a copy of `w`: its row-by-column sums are entries of `matRows x w`. -/
theorem matRows_block (x : FVec Ideal ⟨2, ![100000, 128]⟩ .f32) (w : FVec Ideal ⟨2, ![128, 128]⟩ .f32)
    (bx : FVec Ideal ⟨2, ![5000, 128]⟩ .f32) (bw : FVec Ideal ⟨2, ![128, 128]⟩ .f32)
    (i : (⟨2, ![100000, 128]⟩ : Shape).Idx) (p : Fin 5000) (q : Fin 128)
    (hx : ∀ k : Fin 128, bx (ix2 p k) = x (ix2 (i 0) k)) (hw : ∀ k : Fin 128, bw (ix2 k q) = w (ix2 k (i 1))) :
    ∑ k : Fin 128, bx (ix2 p k) * bw (ix2 k q) = matRows x w i := by
  unfold matRows
  exact Finset.sum_congr rfl fun k _ => by rw [hx k, hw k]

/-- A tile entry of `u` plus the bias row's entry in its column is an entry of `rowBias u r`. -/
theorem rowBias_block (u : FVec Ideal ⟨2, ![100000, 128]⟩ .f32) (r : FVec Ideal ⟨2, ![1, 128]⟩ .f32)
    (bu : FVec Ideal ⟨2, ![5000, 128]⟩ .f32) (br : FVec Ideal ⟨2, ![1, 128]⟩ .f32)
    (i : (⟨2, ![100000, 128]⟩ : Shape).Idx) (p : Fin 5000) (q : Fin 128)
    (hu : bu (ix2 p q) = u i) (hr : br (ix2 (0 : Fin 1) q) = r (ix2 (0 : Fin 1) (i 1))) :
    bu (ix2 p q) + br (ix2 (0 : Fin 1) q) = rowBias u r i := by
  unfold rowBias
  rw [hu, hr]

/-- The same under the maximum with zero. -/
theorem rowBiasRelu_block (u : FVec Ideal ⟨2, ![100000, 128]⟩ .f32) (r : FVec Ideal ⟨2, ![1, 128]⟩ .f32)
    (bu : FVec Ideal ⟨2, ![5000, 128]⟩ .f32) (br : FVec Ideal ⟨2, ![1, 128]⟩ .f32)
    (i : (⟨2, ![100000, 128]⟩ : Shape).Idx) (p : Fin 5000) (q : Fin 128)
    (hu : bu (ix2 p q) = u i) (hr : br (ix2 (0 : Fin 1) q) = r (ix2 (0 : Fin 1) (i 1))) :
    max (bu (ix2 p q) + br (ix2 (0 : Fin 1) q)) (Ideal.ofBits .f32 0x00000000#32) = rowBiasRelu u r i := by
  unfold rowBiasRelu
  rw [hu, hr]

end Cert.Spec

end
-- ==== Proof.Region0.lean ====
/-
  The first feature transform over the whole array.

  The region runs over 20 grid points; point t reads rows 5000 t … 5000 t + 4999 of its first array, the whole weight
  matrix, and writes the same rows of its output. Entry (p, q) of the tile it stores is the sum over k of
  tile(p, k) · weight(k, q), so what point t writes back is block t of `matRows` of the two arrays as the region finds
  them; the 20 blocks cover the output array, which therefore ends holding `matRows` of them.
-/
import proofs.«169793_j61229053772176_1_alg».proof.Proof.Gen.KernelIdeal.Frame
import proofs.«169793_j61229053772176_1_alg».proof.Proof.Tiles
import proofs.«169793_j61229053772176_1_alg».proof.Proof.Spec

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row windows sit at block (t, 0), the weights at block (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem blockOnto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the whole-array product. -/
theorem flushed_eq (c : Dev nD) (t : Fin cfg0.N) :
    (dat0 V c).flushed 2 t
      = ((cfg0.win 2).blk t).view.read (Elt Ideal) (Cert.Spec.matRows (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blockIndex t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Spec.matRows (V c main_arg0) (V c main_arg3) (((cfg0.win 2).blk t).view.emb (ix2 p q))
  refine (Cert.KernelIdeal.Tiles.transform1_apply (iblk0 V c 0 t) (iblk0 V c 1 t) p q).trans ?_
  have h0 : ∀ k : Fin 128, ((cfg0.win 0).blk t).view.emb (ix2 p k) = ix2 ((((cfg0.win 2).blk t).view.emb (ix2 p q)) 0) k := by
    intro k
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q) = ix2 k ((((cfg0.win 2).blk t).view.emb (ix2 p q)) 1) := by
    intro k
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact Cert.Spec.matRows_block (V c main_arg0) (V c main_arg3) (iblk0 V c 0 t) (iblk0 V c 1 t) _ p q
    (fun k => congrArg (V c main_arg0) (h0 k)) (fun k => congrArg (V c main_arg3) (h1 k))

/-- An index is in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Row n lies in the block of point n / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockOnto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole-array product of the two arrays as the region finds them. -/
theorem final (c : Dev nD) :
    (dat0 V c).arrAt 2 cfg0.N = Cert.Spec.matRows (V c main_arg0) (V c main_arg3) :=
  (dat0 V c).arrAt_eq_of_cover 2 _ (fun t _ => flushed_eq V c t) (cover)

end Cert.KernelIdeal.Region0

end
-- ==== Proof.Region1.lean ====
/-
  The first bias step, with the maximum with zero, over the whole array.

  The region runs over 20 grid points; point t reads rows 5000 t … 5000 t + 4999 of its first array and the whole
  [1, 128] bias row, and writes the same rows of its output. Entry (p, q) of the tile it stores is the maximum of tile(p, q) + bias(0, q) and zero,
  so what point t writes back is block t of `rowBiasRelu` of the two arrays as the region finds them; the 20 blocks
  cover the output array, which therefore ends holding `rowBiasRelu` of them.
-/
import proofs.«169793_j61229053772176_1_alg».proof.Proof.Gen.KernelIdeal.Frame
import proofs.«169793_j61229053772176_1_alg».proof.Proof.Tiles
import proofs.«169793_j61229053772176_1_alg».proof.Proof.Spec

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row windows sit at block (t, 0), the bias row at block (0, 0). -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem blockOnto : ∀ q0 : Fin 20, ∃ t : Fin cfg1.N, win1_2.index t = ![q0.val, 0] :=
  (by decide +kernel : ∀ q0 : Fin 20, ∃ t : Fin grid1.N, win1_2.index t = ![q0.val, 0])

/-- What point `t` writes back is block `t` of the whole-array bias step. -/
theorem flushed_eq (c : Dev nD) (t : Fin cfg1.N) :
    (dat1 V c).flushed 2 t
      = ((cfg1.win 2).blk t).view.read (Elt Ideal) (Cert.Spec.rowBiasRelu (V c main_v45) (V c main_v46)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := blockIndex t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = Cert.Spec.rowBiasRelu (V c main_v45) (V c main_v46) (((cfg1.win 2).blk t).view.emb (ix2 p q))
  refine (Cert.KernelIdeal.Tiles.biasRelu_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact Cert.Spec.rowBiasRelu_block (V c main_v45) (V c main_v46) (iblk1 V c 0 t) (iblk1 V c 1 t) _ p q
    (congrArg (V c main_v45) h0) (congrArg (V c main_v46) h1)

/-- An index is in point `t`'s block iff each coordinate is in the block's range. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Row n lies in the block of point n / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := blockOnto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the bias step of the two arrays as the region finds them. -/
theorem final (c : Dev nD) :
    (dat1 V c).arrAt 2 cfg1.N = Cert.Spec.rowBiasRelu (V c main_v45) (V c main_v46) :=
  (dat1 V c).arrAt_eq_of_cover 2 _ (fun t _ => flushed_eq V c t) (cover)

end Cert.KernelIdeal.Region1

end
-- ==== Proof.Region2.lean ====
/-
  The second feature transform over the whole array.

  The region runs over 20 grid points; point t reads rows 5000 t … 5000 t + 4999 of its first array, the whole weight
  matrix, and writes the same rows of its output. Entry (p, q) of the tile it stores is the sum over k of
  tile(p, k) · weight(k, q), so what point t writes back is block t of `matRows` of the two arrays as the region finds
  them; the 20 blocks cover the output array, which therefore ends holding `matRows` of them.
-/
import proofs.«169793_j61229053772176_1_alg».proof.Proof.Gen.KernelIdeal.Frame
import proofs.«169793_j61229053772176_1_alg».proof.Proof.Tiles
import proofs.«169793_j61229053772176_1_alg».proof.Proof.Spec

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row windows sit at block (t, 0), the weights at block (0, 0). -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem blockOnto : ∀ q0 : Fin 20, ∃ t : Fin cfg2.N, win2_2.index t = ![q0.val, 0] :=
  (by decide +kernel : ∀ q0 : Fin 20, ∃ t : Fin grid2.N, win2_2.index t = ![q0.val, 0])

/-- What point `t` writes back is block `t` of the whole-array product. -/
theorem flushed_eq (c : Dev nD) (t : Fin cfg2.N) :
    (dat2 V c).flushed 2 t
      = ((cfg2.win 2).blk t).view.read (Elt Ideal) (Cert.Spec.matRows (V c main_v47) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := blockIndex t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = Cert.Spec.matRows (V c main_v47) (V c main_arg5) (((cfg2.win 2).blk t).view.emb (ix2 p q))
  refine (Cert.KernelIdeal.Tiles.transform2_apply (iblk2 V c 0 t) (iblk2 V c 1 t) p q).trans ?_
  have h0 : ∀ k : Fin 128, ((cfg2.win 0).blk t).view.emb (ix2 p k) = ix2 ((((cfg2.win 2).blk t).view.emb (ix2 p q)) 0) k := by
    intro k
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ∀ k : Fin 128, ((cfg2.win 1).blk t).view.emb (ix2 k q) = ix2 k ((((cfg2.win 2).blk t).view.emb (ix2 p q)) 1) := by
    intro k
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact Cert.Spec.matRows_block (V c main_v47) (V c main_arg5) (iblk2 V c 0 t) (iblk2 V c 1 t) _ p q
    (fun k => congrArg (V c main_v47) (h0 k)) (fun k => congrArg (V c main_arg5) (h1 k))

/-- An index is in point `t`'s block iff each coordinate is in the block's range. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Row n lies in the block of point n / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := blockOnto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole-array product of the two arrays as the region finds them. -/
theorem final (c : Dev nD) :
    (dat2 V c).arrAt 2 cfg2.N = Cert.Spec.matRows (V c main_v47) (V c main_arg5) :=
  (dat2 V c).arrAt_eq_of_cover 2 _ (fun t _ => flushed_eq V c t) (cover)

end Cert.KernelIdeal.Region2

end
-- ==== Proof.Region3.lean ====
/-
  The second bias step over the whole array.

  The region runs over 20 grid points; point t reads rows 5000 t … 5000 t + 4999 of its first array and the whole
  [1, 128] bias row, and writes the same rows of its output. Entry (p, q) of the tile it stores is tile(p, q) + bias(0, q),
  so what point t writes back is block t of `rowBias` of the two arrays as the region finds them; the 20 blocks
  cover the output array, which therefore ends holding `rowBias` of them.
-/
import proofs.«169793_j61229053772176_1_alg».proof.Proof.Gen.KernelIdeal.Frame
import proofs.«169793_j61229053772176_1_alg».proof.Proof.Tiles
import proofs.«169793_j61229053772176_1_alg».proof.Proof.Spec

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row windows sit at block (t, 0), the bias row at block (0, 0). -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem blockOnto : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of the whole-array bias step. -/
theorem flushed_eq (c : Dev nD) (t : Fin cfg3.N) :
    (dat3 V c).flushed 2 t
      = ((cfg3.win 2).blk t).view.read (Elt Ideal) (Cert.Spec.rowBias (V c main_v61) (V c main_v62)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := blockIndex t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q)
    = Cert.Spec.rowBias (V c main_v61) (V c main_v62) (((cfg3.win 2).blk t).view.emb (ix2 p q))
  refine (Cert.KernelIdeal.Tiles.bias_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  exact Cert.Spec.rowBias_block (V c main_v61) (V c main_v62) (iblk3 V c 0 t) (iblk3 V c 1 t) _ p q
    (congrArg (V c main_v61) h0) (congrArg (V c main_v62) h1)

/-- An index is in point `t`'s block iff each coordinate is in the block's range. -/
theorem mem_blk (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- Row n lies in the block of point n / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := blockOnto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the bias step of the two arrays as the region finds them. -/
theorem final (c : Dev nD) :
    (dat3 V c).arrAt 2 cfg3.N = Cert.Spec.rowBias (V c main_v61) (V c main_v62) :=
  (dat3 V c).arrAt_eq_of_cover 2 _ (fun t _ => flushed_eq V c t) (cover)

end Cert.KernelIdeal.Region3

end
-- ==== Proof.Region4.lean ====
/-
  The head over its one grid point.

  The region has a single grid point and every window's one block is its whole array, so what the point writes back
  is the body's result of the arrays as the region finds them, and that is what the output array ends holding.
-/
import proofs.«169793_j61229053772176_1_alg».proof.Proof.Gen.KernelIdeal.Frame
import Idealize.ShloMosaic.Lib.ValueIdx
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Every window's block index at the one grid point is (0, 0). -/
theorem blockIndex : ∀ t : Fin cfg4.N, ∀ a : Fin 2, win4_0.index t a = 0 ∧ win4_1.index t a = 0 ∧ win4_2.index t a = 0
    ∧ win4_3.index t a = 0 ∧ win4_4.index t a = 0 ∧ win4_5.index t a = 0 ∧ win4_6.index t a = 0 :=
  (by decide +kernel : ∀ t : Fin grid4.N, _)

/-- Window 0's one block is its whole array. -/
theorem block0 (c : Dev nD) (t : Fin cfg4.N) : (iblk4 V c 0 t : S64x128.Idx → Elt Ideal .f32) = V c main_v66 := by
  funext y
  show V c main_v66 (((cfg4.win 0).blk t).view.emb y) = V c main_v66 y
  refine congrArg _ ?_
  funext a; apply Fin.ext
  have h := blockIndex t
  match a with
  | ⟨0, _⟩ => show win4_0.index t (0 : Fin 2) * 64 + 1 * (y 0).val = (y 0).val; have := (h 0).1; omega
  | ⟨1, _⟩ => show win4_0.index t (1 : Fin 2) * 128 + 1 * (y 1).val = (y 1).val; have := (h 1).1; omega

/-- Window 1's one block is its whole array. -/
theorem block1 (c : Dev nD) (t : Fin cfg4.N) : (iblk4 V c 1 t : S64x1.Idx → Elt Ideal .f32) = V c main_v71 := by
  funext y
  show V c main_v71 (((cfg4.win 1).blk t).view.emb y) = V c main_v71 y
  refine congrArg _ ?_
  funext a; apply Fin.ext
  have h := blockIndex t
  match a with
  | ⟨0, _⟩ => show win4_1.index t (0 : Fin 2) * 64 + 1 * (y 0).val = (y 0).val; have := (h 0).2.1; omega
  | ⟨1, _⟩ => show win4_1.index t (1 : Fin 2) * 1 + 1 * (y 1).val = (y 1).val; have := (h 1).2.1; omega

/-- Window 2's one block is its whole array. -/
theorem block2 (c : Dev nD) (t : Fin cfg4.N) : (iblk4 V c 2 t : S128x64.Idx → Elt Ideal .f32) = V c main_arg7 := by
  funext y
  show V c main_arg7 (((cfg4.win 2).blk t).view.emb y) = V c main_arg7 y
  refine congrArg _ ?_
  funext a; apply Fin.ext
  have h := blockIndex t
  match a with
  | ⟨0, _⟩ => show win4_2.index t (0 : Fin 2) * 128 + 1 * (y 0).val = (y 0).val; have := (h 0).2.2.1; omega
  | ⟨1, _⟩ => show win4_2.index t (1 : Fin 2) * 64 + 1 * (y 1).val = (y 1).val; have := (h 1).2.2.1; omega

/-- Window 3's one block is its whole array. -/
theorem block3 (c : Dev nD) (t : Fin cfg4.N) : (iblk4 V c 3 t : S1x64.Idx → Elt Ideal .f32) = V c main_v72 := by
  funext y
  show V c main_v72 (((cfg4.win 3).blk t).view.emb y) = V c main_v72 y
  refine congrArg _ ?_
  funext a; apply Fin.ext
  have h := blockIndex t
  match a with
  | ⟨0, _⟩ => show win4_3.index t (0 : Fin 2) * 1 + 1 * (y 0).val = (y 0).val; have := (h 0).2.2.2.1; omega
  | ⟨1, _⟩ => show win4_3.index t (1 : Fin 2) * 64 + 1 * (y 1).val = (y 1).val; have := (h 1).2.2.2.1; omega

/-- Window 4's one block is its whole array. -/
theorem block4 (c : Dev nD) (t : Fin cfg4.N) : (iblk4 V c 4 t : S64x1.Idx → Elt Ideal .f32) = V c main_arg9 := by
  funext y
  show V c main_arg9 (((cfg4.win 4).blk t).view.emb y) = V c main_arg9 y
  refine congrArg _ ?_
  funext a; apply Fin.ext
  have h := blockIndex t
  match a with
  | ⟨0, _⟩ => show win4_4.index t (0 : Fin 2) * 64 + 1 * (y 0).val = (y 0).val; have := (h 0).2.2.2.2.1; omega
  | ⟨1, _⟩ => show win4_4.index t (1 : Fin 2) * 1 + 1 * (y 1).val = (y 1).val; have := (h 1).2.2.2.2.1; omega

/-- Window 5's one block is its whole array. -/
theorem block5 (c : Dev nD) (t : Fin cfg4.N) : (iblk4 V c 5 t : S1x1.Idx → Elt Ideal .f32) = V c main_v73 := by
  funext y
  show V c main_v73 (((cfg4.win 5).blk t).view.emb y) = V c main_v73 y
  refine congrArg _ ?_
  funext a; apply Fin.ext
  have h := blockIndex t
  match a with
  | ⟨0, _⟩ => show win4_5.index t (0 : Fin 2) * 1 + 1 * (y 0).val = (y 0).val; have := (h 0).2.2.2.2.2.1; omega
  | ⟨1, _⟩ => show win4_5.index t (1 : Fin 2) * 1 + 1 * (y 1).val = (y 1).val; have := (h 1).2.2.2.2.2.1; omega

/-- The head of the arrays as the region finds them. -/
def headOf (c : Dev nD) : S64x1.Idx → Elt Ideal .f32 :=
  k4_pay1 (F := Ideal) (V c main_v71) (V c main_v66) (V c main_arg7) (V c main_v72) (V c main_arg9) (V c main_v73)

/-- What the one point writes back is the head of the arrays, read through the whole-array block. -/
theorem flushed_eq (c : Dev nD) (t : Fin cfg4.N) :
    (dat4 V c).flushed 6 t = ((cfg4.win 6).blk t).view.read (Elt Ideal) (headOf V c) := by
  show (cfg4.win 6).cut (grid4.coords t) ((dat4 V c).after 6 t) = _
  rw [after4_6]
  unfold out4_6
  rw [View.canon_unit_zero origin]
  simp only [View.ld_unit_zero (S := S64x128) origin, View.ld_unit_zero (S := S64x1) origin,
    View.ld_unit_zero (S := S128x64) origin, View.ld_unit_zero (S := S1x64) origin, View.ld_unit_zero (S := S1x1) origin]
  funext j
  have hj : ((cfg4.win 6).blk t).view.emb j = j := by
    funext a; apply Fin.ext
    have h := blockIndex t
    match a with
    | ⟨0, _⟩ => show win4_6.index t (0 : Fin 2) * 64 + 1 * (j 0).val = (j 0).val; have := (h 0).2.2.2.2.2.2; omega
    | ⟨1, _⟩ => show win4_6.index t (1 : Fin 2) * 1 + 1 * (j 1).val = (j 1).val; have := (h 1).2.2.2.2.2.2; omega
  show k4_pay1 (F := Ideal) (iblk4 V c 1 t) (iblk4 V c 0 t) (iblk4 V c 2 t) (iblk4 V c 3 t) (iblk4 V c 4 t) (iblk4 V c 5 t) j
    = headOf V c (((cfg4.win 6).blk t).view.emb j)
  rw [hj]
  unfold headOf
  rw [block0 V c t, block1 V c t, block2 V c t, block3 V c t, block4 V c t, block5 V c t]

/-- The one block is the whole output array. -/
theorem cover (i : S64x1.Idx) :
    ∃ t : Fin cfg4.N, (cfg4.win 6).flush t = true ∧ i ∈ ((cfg4.win 6).blk t).view.set := by
  refine ⟨t4_0, flush4_6 t4_0, ?_⟩
  show i ∈ ((View.whole main_v74).slice (win4_6.rect t4_0)).set
  rw [View.set_slice_whole, Rect.mem_set_unit]
  have h := blockIndex t4_0
  have hi0 : (i 0).val < 64 := (i 0).isLt
  have hi1 : (i 1).val < 1 := (i 1).isLt
  intro a
  match a with
  | ⟨0, _⟩ => show win4_6.index t4_0 (0 : Fin 2) * 64 ≤ (i 0).val ∧ (i 0).val < win4_6.index t4_0 (0 : Fin 2) * 64 + 64; have := (h 0).2.2.2.2.2.2; omega
  | ⟨1, _⟩ => show win4_6.index t4_0 (1 : Fin 2) * 1 ≤ (i 1).val ∧ (i 1).val < win4_6.index t4_0 (1 : Fin 2) * 1 + 1; have := (h 1).2.2.2.2.2.2; omega

/-- The output array after the region: the head of the arrays as the region finds them. -/
theorem final (c : Dev nD) : (dat4 V c).arrAt 6 cfg4.N = headOf V c :=
  (dat4 V c).arrAt_eq_of_cover 6 _ (fun t _ => flushed_eq V c t) (cover)

end Cert.KernelIdeal.Region4

end
-- ==== Proof.Layers.lean ====
/-
  The reference's result as a composition of layers.

  The reference computes, from node features x [100000, 128], an edge list [2, 1600000], a graph id per node and the
  weights: two graph-convolution layers and a pooled two-layer head. With a self-loop appended per node, src and dst
  are the 1700000 edge ends; deg counts the edges into each node; dinv = rsqrt(max(deg, 1)) where deg > 0, else 0;
  norm(e) = dinv(src e) · dinv(dst e). One convolution of features h with weights W and bias b is
      agg (h · W) + b,     agg(y)(n, ·) = Σ over edges e with dst e = n of  y(src e, ·) · norm(e),
  the first followed by a maximum with zero. The head sums the rows of each graph, divides by max(count, 1), applies
  an affine map and a maximum with zero, a second affine map to one column, and 1 / (1 + exp(−·)).
  Below each of these is a named function in the reference's own operations, and the reference's result term IS their
  composition (by unfolding the names).
-/
import proofs.«169793_j61229053772176_1_alg».proof.Proof.RefRun

noncomputable section

namespace Cert.Layers

open Cert.ReferenceIdeal Cert.ReferenceIdeal.Gen Idealize.ShloMosaic Idealize.ShloMosaic.TcCoe Idealize.SL.Sem

variable {F : FTy → Type} [FloatOps F]

/-- Edge sources: row 0 of the edge list, then every node once (its self-loop). -/
def src (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- Edge destinations: row 1 of the edge list, then every node once. -/
def dst (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- In-degree with self-loops: ones summed into the destinations. -/
def deg (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst x1)) (broadcastInDim S1700000 ![] bcast_S_S1700000 (constant S_ .f32 0x3F800000#32))

/-- rsqrt(max(deg, 1)) where deg > 0, else 0. -/
def dinv (x1 : (⟨S2x1600000, .i32⟩ : BufTy).Contents (Elt F)) : (⟨S100000, .f32⟩ : BufTy).Contents (Elt F) :=
  select (cmpf (F := F) .ogt (deg x1) (broadcastInDim S100000 ![] bcast_S_S100000 (constant S_ .f32 0x00000000#32))) (Host.rsqrt (maximumf (deg x1) (broadcastInDim S100000 ![] bcast_S_S100000 (constant S_ .f32 0x3F800000#32)))) (broadcastInDim S100000 ![] bcast_S_S100000 (id (constant S_ .f32 0x00000000#32)))

/-- An index below zero counts from the end. -/
def wrapIdx (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- Per edge: dinv(src) · dinv(dst). -/
def norm (x1 : (⟨S2x1600000, .i32⟩ : BufTy).Contents (Elt F)) : (⟨S1700000, .f32⟩ : BufTy).Contents (Elt F) :=
  mulf (Host.gather gather_S100000_S1700000x1_S1700000_n_0_n_n_0_1_1 (dinv x1) (broadcastInDim S1700000x1 ![0] bcast_S1700000_S1700000x1_0 (wrapIdx (src x1)))) (Host.gather gather_S100000_S1700000x1_S1700000_n_0_n_n_0_1_1 (dinv x1) (broadcastInDim S1700000x1 ![0] bcast_S1700000_S1700000x1_0 (wrapIdx (dst x1))))

/-- The feature transform h · W. -/
def dense (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- The normalised aggregation: rows of `xw` gathered at the sources, scaled per edge, summed into the destinations. -/
def agg (x1 : (⟨S2x1600000, .i32⟩ : BufTy).Contents (Elt F)) (xw : (⟨S100000x128, .f32⟩ : BufTy).Contents (Elt F)) :
    (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dst x1)) (mulf (Host.gather gather_S100000x128_S1700000x1_S1700000x128_1_0_n_n_0_1_1128 xw (broadcastInDim S1700000x1 ![0] bcast_S1700000_S1700000x1_0 (wrapIdx (src x1)))) (broadcastInDim S1700000x128 ![0, 1] bcast_S1700000x1_S1700000x128_0_1 (broadcastInDim S1700000x1 ![0] bcast_S1700000_S1700000x1_0 (norm x1))))

/-- A bias vector added to every row. -/
def addBias (u : (⟨S100000x128, .f32⟩ : BufTy).Contents (Elt F)) (b : (⟨S128, .f32⟩ : BufTy).Contents (Elt F)) :
    (⟨S100000x128, .f32⟩ : BufTy).Contents (Elt F) :=
  addf u (broadcastInDim S100000x128 ![0, 1] bcast_S1x128_S100000x128_0_1 (broadcastInDim S1x128 ![1] bcast_S128_S1x128_1 b))

/-- The maximum with zero. -/
def relu (z : (⟨S100000x128, .f32⟩ : BufTy).Contents (Elt F)) : (⟨S100000x128, .f32⟩ : BufTy).Contents (Elt F) :=
  maximumf z (broadcastInDim S100000x128 ![] bcast_S_S100000x128 (constant S_ .f32 0x00000000#32))

/-- Rows summed per graph. -/
def pool (x2 : (⟨S100000, .i32⟩ : BufTy).Contents (Elt F)) (h : (⟨S100000x128, .f32⟩ : BufTy).Contents (Elt F)) :
    (⟨S64x128, .f32⟩ : BufTy).Contents (Elt F) :=
  Host.scatterAdd scatter_S64x128_S100000x1_S100000x128_1_0_0_1 (broadcastInDim S64x128 ![] bcast_S_S64x128 (constant S_ .f32 0x00000000#32)) (broadcastInDim S100000x1 ![0] bcast_S100000_S100000x1_0 x2) h

/-- Nodes counted per graph. -/
def counts (x2 : (⟨S100000, .i32⟩ : BufTy).Contents (Elt F)) : (⟨S64, .f32⟩ : BufTy).Contents (Elt F) :=
  Host.scatterAdd scatter_S64_S100000x1_S100000_n_0_0_1 (broadcastInDim S64 ![] bcast_S_S64 (constant S_ .f32 0x00000000#32)) (broadcastInDim S100000x1 ![0] bcast_S100000_S100000x1_0 x2) (broadcastInDim S100000 ![] bcast_S_S100000 (constant S_ .f32 0x3F800000#32))

/-- The head: mean per graph, affine map, maximum with zero, affine map to one column, 1 / (1 + exp(−·)). -/
def head (sums : (⟨S64x128, .f32⟩ : BufTy).Contents (Elt F)) (cnt : (⟨S64, .f32⟩ : BufTy).Contents (Elt F))
    (x7 : (⟨S128x64, .f32⟩ : BufTy).Contents (Elt F)) (x8 : (⟨S64, .f32⟩ : BufTy).Contents (Elt F))
    (x9 : (⟨S64x1, .f32⟩ : BufTy).Contents (Elt F)) (x10 : (⟨S1, .f32⟩ : BufTy).Contents (Elt F)) :
    (⟨S64x1, .f32⟩ : BufTy).Contents (Elt F) :=
  Host.divf (broadcastInDim S64x1 ![] bcast_S_S64x1 (constant S_ .f32 0x3F800000#32)) (addf (broadcastInDim S64x1 ![] bcast_S_S64x1 (constant S_ .f32 0x3F800000#32)) (Host.exp (Host.negf (addf (Host.dotGeneral dot_S64x64_S64x1_S64x1_1_0_0_1_n_n none (maximumf (addf (Host.dotGeneral dot_S64x128_S128x64_S64x64_1_0_0_1_n_n none (Host.divf sums (broadcastInDim S64x128 ![0, 1] bcast_S64x1_S64x128_0_1 (broadcastInDim S64x1 ![0] bcast_S64_S64x1_0 (maximumf cnt (broadcastInDim S64 ![] bcast_S_S64 (constant S_ .f32 0x3F800000#32)))))) x7) (broadcastInDim S64x64 ![0, 1] bcast_S1x64_S64x64_0_1 (broadcastInDim S1x64 ![1] bcast_S64_S1x64_1 x8))) (broadcastInDim S64x64 ![] bcast_S_S64x64 (constant S_ .f32 0x00000000#32))) x9) (broadcastInDim S64x1 ![0, 1] bcast_S1x1_S64x1_0_1 (broadcastInDim S1x1 ![1] bcast_S1_S1x1_1 x10))))))

/-- The whole model. -/
def model (x0 : (⟨S100000x128, .f32⟩ : BufTy).Contents (Elt F)) (x1 : (⟨S2x1600000, .i32⟩ : BufTy).Contents (Elt F))
    (x2 : (⟨S100000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S128x64, .f32⟩ : BufTy).Contents (Elt F))
    (x8 : (⟨S64, .f32⟩ : BufTy).Contents (Elt F)) (x9 : (⟨S64x1, .f32⟩ : BufTy).Contents (Elt F))
    (x10 : (⟨S1, .f32⟩ : BufTy).Contents (Elt F)) : (⟨S64x1, .f32⟩ : BufTy).Contents (Elt F) :=
  head (pool x2 (addBias (agg x1 (dense (relu (addBias (agg x1 (dense x0 x3)) x4)) x5)) x6)) (counts x2) x7 x8 x9 x10

set_option maxRecDepth 8192 in
/-- The reference's result term is the model of its arguments. -/
theorem res_eq (m : (ℓ : Loc nD τ sig) → Buf (Elt F) ℓ) (c : Dev nD) :
    Cert.ReferenceIdeal.ValueP.res_main_v108 m c
      = model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.ValueP.res_main_v108
  rfl

end Cert.Layers

end
-- ==== Proof.Fold.lean ====
/-
  The kernel program's result buffer, walked back through the program's eleven boundaries.

  The program is six stretches of host operations around five regions. The contents at each boundary are a fold from
  the launch memory: a stretch applies its operations; a region replaces its arrays by what its write-backs leave.
  Walking the result buffer back through the fold: it is the head of the pooled second layer; the second layer is the
  bias step of the aggregated second transform of the first layer's output; the first layer is the bias step and
  maximum with zero of the aggregated first transform of the node features. The edge ends and the edge weights are
  computed once by the first three stretches and read, unchanged, by the two aggregating stretches; an argument array
  is written by nothing.
-/
import proofs.«169793_j61229053772176_1_alg».proof.Proof.Gen.KernelIdeal.Frame
import proofs.«169793_j61229053772176_1_alg».proof.Proof.Region0
import proofs.«169793_j61229053772176_1_alg».proof.Proof.Region1
import proofs.«169793_j61229053772176_1_alg».proof.Proof.Region2
import proofs.«169793_j61229053772176_1_alg».proof.Proof.Region3
import proofs.«169793_j61229053772176_1_alg».proof.Proof.Region4
import proofs.«169793_j61229053772176_1_alg».proof.Proof.Layers

set_option maxRecDepth 16384

noncomputable section

namespace Cert.KernelIdeal.Fold

open Idealize.ShloMosaic Idealize.ShloMosaic.TcCoe Idealize.ShloMosaic.ValueIdx Idealize.SL.Sem
open Idealize.ShloMosaic.StableHlo (after_of_forall_not_mem)
open Cert.KernelIdeal Cert.KernelIdeal.Gen

variable (m : (ℓ : Loc nD τ sig) → Buf (Elt Ideal) ℓ) (ρ : Dev nD → PrngReg) (c : Dev nD)

/-- A buffer that no operation of a stretch writes keeps its contents over the stretch. -/
local macro "stretch_keeps" : tactic => `(tactic| (
  refine StableHlo.after_of_forall_not_mem _ _ (List.forall_iff_forall_mem.mp ?_)
  simp only [hostOps0, hostOps0_1, hostOps0_2, hostOps1, hostOps3, hostOps4, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The argument arrays, as launched, at every boundary where something still reads them -/

theorem at1_arg0 : W1 m ρ c (Proc.devRef .tc main_arg0) = m ((c : Thread nD τ).loc main_arg0) := by
  refine Eq.trans (b := W0 m ρ c (Proc.devRef .tc main_arg0)) ?_ rfl
  stretch_keeps
theorem at2_arg0 : W2 m ρ c (Proc.devRef .tc main_arg0) = m ((c : Thread nD τ).loc main_arg0) := by
  refine Eq.trans (b := W1 m ρ c (Proc.devRef .tc main_arg0)) ?_ (at1_arg0 m ρ c)
  stretch_keeps
theorem at3_arg0 : W3 m ρ c (Proc.devRef .tc main_arg0) = m ((c : Thread nD τ).loc main_arg0) := by
  refine Eq.trans (b := W2 m ρ c (Proc.devRef .tc main_arg0)) ?_ (at2_arg0 m ρ c)
  stretch_keeps
theorem at1_arg2 : W1 m ρ c (Proc.devRef .tc main_arg2) = m ((c : Thread nD τ).loc main_arg2) := by
  refine Eq.trans (b := W0 m ρ c (Proc.devRef .tc main_arg2)) ?_ rfl
  stretch_keeps
theorem at2_arg2 : W2 m ρ c (Proc.devRef .tc main_arg2) = m ((c : Thread nD τ).loc main_arg2) := by
  refine Eq.trans (b := W1 m ρ c (Proc.devRef .tc main_arg2)) ?_ (at1_arg2 m ρ c)
  stretch_keeps
theorem at3_arg2 : W3 m ρ c (Proc.devRef .tc main_arg2) = m ((c : Thread nD τ).loc main_arg2) := by
  refine Eq.trans (b := W2 m ρ c (Proc.devRef .tc main_arg2)) ?_ (at2_arg2 m ρ c)
  stretch_keeps
theorem at4_arg2 : W4 m ρ c (Proc.devRef .tc main_arg2) = m ((c : Thread nD τ).loc main_arg2) :=
  (W4_of_ne m ρ c main_arg2 (by decide)).trans (at3_arg2 m ρ c)
theorem at5_arg2 : W5 m ρ c (Proc.devRef .tc main_arg2) = m ((c : Thread nD τ).loc main_arg2) := by
  refine Eq.trans (b := W4 m ρ c (Proc.devRef .tc main_arg2)) ?_ (at4_arg2 m ρ c)
  stretch_keeps
theorem at6_arg2 : W6 m ρ c (Proc.devRef .tc main_arg2) = m ((c : Thread nD τ).loc main_arg2) :=
  (W6_of_ne m ρ c main_arg2 (by decide)).trans (at5_arg2 m ρ c)
theorem at7_arg2 : W7 m ρ c (Proc.devRef .tc main_arg2) = m ((c : Thread nD τ).loc main_arg2) :=
  (W7_of_ne m ρ c main_arg2 (by decide)).trans (at6_arg2 m ρ c)
theorem at8_arg2 : W8 m ρ c (Proc.devRef .tc main_arg2) = m ((c : Thread nD τ).loc main_arg2) := by
  refine Eq.trans (b := W7 m ρ c (Proc.devRef .tc main_arg2)) ?_ (at7_arg2 m ρ c)
  stretch_keeps
theorem at9_arg2 : W9 m ρ c (Proc.devRef .tc main_arg2) = m ((c : Thread nD τ).loc main_arg2) :=
  (W9_of_ne m ρ c main_arg2 (by decide)).trans (at8_arg2 m ρ c)
theorem at1_arg3 : W1 m ρ c (Proc.devRef .tc main_arg3) = m ((c : Thread nD τ).loc main_arg3) := by
  refine Eq.trans (b := W0 m ρ c (Proc.devRef .tc main_arg3)) ?_ rfl
  stretch_keeps
theorem at2_arg3 : W2 m ρ c (Proc.devRef .tc main_arg3) = m ((c : Thread nD τ).loc main_arg3) := by
  refine Eq.trans (b := W1 m ρ c (Proc.devRef .tc main_arg3)) ?_ (at1_arg3 m ρ c)
  stretch_keeps
theorem at3_arg3 : W3 m ρ c (Proc.devRef .tc main_arg3) = m ((c : Thread nD τ).loc main_arg3) := by
  refine Eq.trans (b := W2 m ρ c (Proc.devRef .tc main_arg3)) ?_ (at2_arg3 m ρ c)
  stretch_keeps
theorem at1_arg4 : W1 m ρ c (Proc.devRef .tc main_arg4) = m ((c : Thread nD τ).loc main_arg4) := by
  refine Eq.trans (b := W0 m ρ c (Proc.devRef .tc main_arg4)) ?_ rfl
  stretch_keeps
theorem at2_arg4 : W2 m ρ c (Proc.devRef .tc main_arg4) = m ((c : Thread nD τ).loc main_arg4) := by
  refine Eq.trans (b := W1 m ρ c (Proc.devRef .tc main_arg4)) ?_ (at1_arg4 m ρ c)
  stretch_keeps
theorem at3_arg4 : W3 m ρ c (Proc.devRef .tc main_arg4) = m ((c : Thread nD τ).loc main_arg4) := by
  refine Eq.trans (b := W2 m ρ c (Proc.devRef .tc main_arg4)) ?_ (at2_arg4 m ρ c)
  stretch_keeps
theorem at4_arg4 : W4 m ρ c (Proc.devRef .tc main_arg4) = m ((c : Thread nD τ).loc main_arg4) :=
  (W4_of_ne m ρ c main_arg4 (by decide)).trans (at3_arg4 m ρ c)
theorem at1_arg5 : W1 m ρ c (Proc.devRef .tc main_arg5) = m ((c : Thread nD τ).loc main_arg5) := by
  refine Eq.trans (b := W0 m ρ c (Proc.devRef .tc main_arg5)) ?_ rfl
  stretch_keeps
theorem at2_arg5 : W2 m ρ c (Proc.devRef .tc main_arg5) = m ((c : Thread nD τ).loc main_arg5) := by
  refine Eq.trans (b := W1 m ρ c (Proc.devRef .tc main_arg5)) ?_ (at1_arg5 m ρ c)
  stretch_keeps
theorem at3_arg5 : W3 m ρ c (Proc.devRef .tc main_arg5) = m ((c : Thread nD τ).loc main_arg5) := by
  refine Eq.trans (b := W2 m ρ c (Proc.devRef .tc main_arg5)) ?_ (at2_arg5 m ρ c)
  stretch_keeps
theorem at4_arg5 : W4 m ρ c (Proc.devRef .tc main_arg5) = m ((c : Thread nD τ).loc main_arg5) :=
  (W4_of_ne m ρ c main_arg5 (by decide)).trans (at3_arg5 m ρ c)
theorem at5_arg5 : W5 m ρ c (Proc.devRef .tc main_arg5) = m ((c : Thread nD τ).loc main_arg5) := by
  refine Eq.trans (b := W4 m ρ c (Proc.devRef .tc main_arg5)) ?_ (at4_arg5 m ρ c)
  stretch_keeps
theorem at6_arg5 : W6 m ρ c (Proc.devRef .tc main_arg5) = m ((c : Thread nD τ).loc main_arg5) :=
  (W6_of_ne m ρ c main_arg5 (by decide)).trans (at5_arg5 m ρ c)
theorem at1_arg6 : W1 m ρ c (Proc.devRef .tc main_arg6) = m ((c : Thread nD τ).loc main_arg6) := by
  refine Eq.trans (b := W0 m ρ c (Proc.devRef .tc main_arg6)) ?_ rfl
  stretch_keeps
theorem at2_arg6 : W2 m ρ c (Proc.devRef .tc main_arg6) = m ((c : Thread nD τ).loc main_arg6) := by
  refine Eq.trans (b := W1 m ρ c (Proc.devRef .tc main_arg6)) ?_ (at1_arg6 m ρ c)
  stretch_keeps
theorem at3_arg6 : W3 m ρ c (Proc.devRef .tc main_arg6) = m ((c : Thread nD τ).loc main_arg6) := by
  refine Eq.trans (b := W2 m ρ c (Proc.devRef .tc main_arg6)) ?_ (at2_arg6 m ρ c)
  stretch_keeps
theorem at4_arg6 : W4 m ρ c (Proc.devRef .tc main_arg6) = m ((c : Thread nD τ).loc main_arg6) :=
  (W4_of_ne m ρ c main_arg6 (by decide)).trans (at3_arg6 m ρ c)
theorem at5_arg6 : W5 m ρ c (Proc.devRef .tc main_arg6) = m ((c : Thread nD τ).loc main_arg6) := by
  refine Eq.trans (b := W4 m ρ c (Proc.devRef .tc main_arg6)) ?_ (at4_arg6 m ρ c)
  stretch_keeps
theorem at6_arg6 : W6 m ρ c (Proc.devRef .tc main_arg6) = m ((c : Thread nD τ).loc main_arg6) :=
  (W6_of_ne m ρ c main_arg6 (by decide)).trans (at5_arg6 m ρ c)
theorem at7_arg6 : W7 m ρ c (Proc.devRef .tc main_arg6) = m ((c : Thread nD τ).loc main_arg6) :=
  (W7_of_ne m ρ c main_arg6 (by decide)).trans (at6_arg6 m ρ c)
theorem at1_arg7 : W1 m ρ c (Proc.devRef .tc main_arg7) = m ((c : Thread nD τ).loc main_arg7) := by
  refine Eq.trans (b := W0 m ρ c (Proc.devRef .tc main_arg7)) ?_ rfl
  stretch_keeps
theorem at2_arg7 : W2 m ρ c (Proc.devRef .tc main_arg7) = m ((c : Thread nD τ).loc main_arg7) := by
  refine Eq.trans (b := W1 m ρ c (Proc.devRef .tc main_arg7)) ?_ (at1_arg7 m ρ c)
  stretch_keeps
theorem at3_arg7 : W3 m ρ c (Proc.devRef .tc main_arg7) = m ((c : Thread nD τ).loc main_arg7) := by
  refine Eq.trans (b := W2 m ρ c (Proc.devRef .tc main_arg7)) ?_ (at2_arg7 m ρ c)
  stretch_keeps
theorem at4_arg7 : W4 m ρ c (Proc.devRef .tc main_arg7) = m ((c : Thread nD τ).loc main_arg7) :=
  (W4_of_ne m ρ c main_arg7 (by decide)).trans (at3_arg7 m ρ c)
theorem at5_arg7 : W5 m ρ c (Proc.devRef .tc main_arg7) = m ((c : Thread nD τ).loc main_arg7) := by
  refine Eq.trans (b := W4 m ρ c (Proc.devRef .tc main_arg7)) ?_ (at4_arg7 m ρ c)
  stretch_keeps
theorem at6_arg7 : W6 m ρ c (Proc.devRef .tc main_arg7) = m ((c : Thread nD τ).loc main_arg7) :=
  (W6_of_ne m ρ c main_arg7 (by decide)).trans (at5_arg7 m ρ c)
theorem at7_arg7 : W7 m ρ c (Proc.devRef .tc main_arg7) = m ((c : Thread nD τ).loc main_arg7) :=
  (W7_of_ne m ρ c main_arg7 (by decide)).trans (at6_arg7 m ρ c)
theorem at8_arg7 : W8 m ρ c (Proc.devRef .tc main_arg7) = m ((c : Thread nD τ).loc main_arg7) := by
  refine Eq.trans (b := W7 m ρ c (Proc.devRef .tc main_arg7)) ?_ (at7_arg7 m ρ c)
  stretch_keeps
theorem at9_arg7 : W9 m ρ c (Proc.devRef .tc main_arg7) = m ((c : Thread nD τ).loc main_arg7) :=
  (W9_of_ne m ρ c main_arg7 (by decide)).trans (at8_arg7 m ρ c)
theorem at10_arg7 : W10 m ρ c (Proc.devRef .tc main_arg7) = m ((c : Thread nD τ).loc main_arg7) := by
  refine Eq.trans (b := W9 m ρ c (Proc.devRef .tc main_arg7)) ?_ (at9_arg7 m ρ c)
  stretch_keeps
theorem at1_arg8 : W1 m ρ c (Proc.devRef .tc main_arg8) = m ((c : Thread nD τ).loc main_arg8) := by
  refine Eq.trans (b := W0 m ρ c (Proc.devRef .tc main_arg8)) ?_ rfl
  stretch_keeps
theorem at2_arg8 : W2 m ρ c (Proc.devRef .tc main_arg8) = m ((c : Thread nD τ).loc main_arg8) := by
  refine Eq.trans (b := W1 m ρ c (Proc.devRef .tc main_arg8)) ?_ (at1_arg8 m ρ c)
  stretch_keeps
theorem at3_arg8 : W3 m ρ c (Proc.devRef .tc main_arg8) = m ((c : Thread nD τ).loc main_arg8) := by
  refine Eq.trans (b := W2 m ρ c (Proc.devRef .tc main_arg8)) ?_ (at2_arg8 m ρ c)
  stretch_keeps
theorem at4_arg8 : W4 m ρ c (Proc.devRef .tc main_arg8) = m ((c : Thread nD τ).loc main_arg8) :=
  (W4_of_ne m ρ c main_arg8 (by decide)).trans (at3_arg8 m ρ c)
theorem at5_arg8 : W5 m ρ c (Proc.devRef .tc main_arg8) = m ((c : Thread nD τ).loc main_arg8) := by
  refine Eq.trans (b := W4 m ρ c (Proc.devRef .tc main_arg8)) ?_ (at4_arg8 m ρ c)
  stretch_keeps
theorem at6_arg8 : W6 m ρ c (Proc.devRef .tc main_arg8) = m ((c : Thread nD τ).loc main_arg8) :=
  (W6_of_ne m ρ c main_arg8 (by decide)).trans (at5_arg8 m ρ c)
theorem at7_arg8 : W7 m ρ c (Proc.devRef .tc main_arg8) = m ((c : Thread nD τ).loc main_arg8) :=
  (W7_of_ne m ρ c main_arg8 (by decide)).trans (at6_arg8 m ρ c)
theorem at8_arg8 : W8 m ρ c (Proc.devRef .tc main_arg8) = m ((c : Thread nD τ).loc main_arg8) := by
  refine Eq.trans (b := W7 m ρ c (Proc.devRef .tc main_arg8)) ?_ (at7_arg8 m ρ c)
  stretch_keeps
theorem at9_arg8 : W9 m ρ c (Proc.devRef .tc main_arg8) = m ((c : Thread nD τ).loc main_arg8) :=
  (W9_of_ne m ρ c main_arg8 (by decide)).trans (at8_arg8 m ρ c)
theorem at1_arg9 : W1 m ρ c (Proc.devRef .tc main_arg9) = m ((c : Thread nD τ).loc main_arg9) := by
  refine Eq.trans (b := W0 m ρ c (Proc.devRef .tc main_arg9)) ?_ rfl
  stretch_keeps
theorem at2_arg9 : W2 m ρ c (Proc.devRef .tc main_arg9) = m ((c : Thread nD τ).loc main_arg9) := by
  refine Eq.trans (b := W1 m ρ c (Proc.devRef .tc main_arg9)) ?_ (at1_arg9 m ρ c)
  stretch_keeps
theorem at3_arg9 : W3 m ρ c (Proc.devRef .tc main_arg9) = m ((c : Thread nD τ).loc main_arg9) := by
  refine Eq.trans (b := W2 m ρ c (Proc.devRef .tc main_arg9)) ?_ (at2_arg9 m ρ c)
  stretch_keeps
theorem at4_arg9 : W4 m ρ c (Proc.devRef .tc main_arg9) = m ((c : Thread nD τ).loc main_arg9) :=
  (W4_of_ne m ρ c main_arg9 (by decide)).trans (at3_arg9 m ρ c)
theorem at5_arg9 : W5 m ρ c (Proc.devRef .tc main_arg9) = m ((c : Thread nD τ).loc main_arg9) := by
  refine Eq.trans (b := W4 m ρ c (Proc.devRef .tc main_arg9)) ?_ (at4_arg9 m ρ c)
  stretch_keeps
theorem at6_arg9 : W6 m ρ c (Proc.devRef .tc main_arg9) = m ((c : Thread nD τ).loc main_arg9) :=
  (W6_of_ne m ρ c main_arg9 (by decide)).trans (at5_arg9 m ρ c)
theorem at7_arg9 : W7 m ρ c (Proc.devRef .tc main_arg9) = m ((c : Thread nD τ).loc main_arg9) :=
  (W7_of_ne m ρ c main_arg9 (by decide)).trans (at6_arg9 m ρ c)
theorem at8_arg9 : W8 m ρ c (Proc.devRef .tc main_arg9) = m ((c : Thread nD τ).loc main_arg9) := by
  refine Eq.trans (b := W7 m ρ c (Proc.devRef .tc main_arg9)) ?_ (at7_arg9 m ρ c)
  stretch_keeps
theorem at9_arg9 : W9 m ρ c (Proc.devRef .tc main_arg9) = m ((c : Thread nD τ).loc main_arg9) :=
  (W9_of_ne m ρ c main_arg9 (by decide)).trans (at8_arg9 m ρ c)
theorem at10_arg9 : W10 m ρ c (Proc.devRef .tc main_arg9) = m ((c : Thread nD τ).loc main_arg9) := by
  refine Eq.trans (b := W9 m ρ c (Proc.devRef .tc main_arg9)) ?_ (at9_arg9 m ρ c)
  stretch_keeps
theorem at1_arg10 : W1 m ρ c (Proc.devRef .tc main_arg10) = m ((c : Thread nD τ).loc main_arg10) := by
  refine Eq.trans (b := W0 m ρ c (Proc.devRef .tc main_arg10)) ?_ rfl
  stretch_keeps
theorem at2_arg10 : W2 m ρ c (Proc.devRef .tc main_arg10) = m ((c : Thread nD τ).loc main_arg10) := by
  refine Eq.trans (b := W1 m ρ c (Proc.devRef .tc main_arg10)) ?_ (at1_arg10 m ρ c)
  stretch_keeps
theorem at3_arg10 : W3 m ρ c (Proc.devRef .tc main_arg10) = m ((c : Thread nD τ).loc main_arg10) := by
  refine Eq.trans (b := W2 m ρ c (Proc.devRef .tc main_arg10)) ?_ (at2_arg10 m ρ c)
  stretch_keeps
theorem at4_arg10 : W4 m ρ c (Proc.devRef .tc main_arg10) = m ((c : Thread nD τ).loc main_arg10) :=
  (W4_of_ne m ρ c main_arg10 (by decide)).trans (at3_arg10 m ρ c)
theorem at5_arg10 : W5 m ρ c (Proc.devRef .tc main_arg10) = m ((c : Thread nD τ).loc main_arg10) := by
  refine Eq.trans (b := W4 m ρ c (Proc.devRef .tc main_arg10)) ?_ (at4_arg10 m ρ c)
  stretch_keeps
theorem at6_arg10 : W6 m ρ c (Proc.devRef .tc main_arg10) = m ((c : Thread nD τ).loc main_arg10) :=
  (W6_of_ne m ρ c main_arg10 (by decide)).trans (at5_arg10 m ρ c)
theorem at7_arg10 : W7 m ρ c (Proc.devRef .tc main_arg10) = m ((c : Thread nD τ).loc main_arg10) :=
  (W7_of_ne m ρ c main_arg10 (by decide)).trans (at6_arg10 m ρ c)
theorem at8_arg10 : W8 m ρ c (Proc.devRef .tc main_arg10) = m ((c : Thread nD τ).loc main_arg10) := by
  refine Eq.trans (b := W7 m ρ c (Proc.devRef .tc main_arg10)) ?_ (at7_arg10 m ρ c)
  stretch_keeps
theorem at9_arg10 : W9 m ρ c (Proc.devRef .tc main_arg10) = m ((c : Thread nD τ).loc main_arg10) :=
  (W9_of_ne m ρ c main_arg10 (by decide)).trans (at8_arg10 m ρ c)

/-! ## The edge ends and the edge weights: computed by the first three stretches, kept until the second aggregation -/

theorem edge4_v3 : W4 m ρ c (Proc.devRef .tc main_v3) = W3 m ρ c (Proc.devRef .tc main_v3) :=
  W4_of_ne m ρ c main_v3 (by decide)
theorem edge5_v3 : W5 m ρ c (Proc.devRef .tc main_v3) = W3 m ρ c (Proc.devRef .tc main_v3) := by
  refine Eq.trans (b := W4 m ρ c (Proc.devRef .tc main_v3)) ?_ (edge4_v3 m ρ c)
  stretch_keeps
theorem edge6_v3 : W6 m ρ c (Proc.devRef .tc main_v3) = W3 m ρ c (Proc.devRef .tc main_v3) :=
  (W6_of_ne m ρ c main_v3 (by decide)).trans (edge5_v3 m ρ c)
theorem edge7_v3 : W7 m ρ c (Proc.devRef .tc main_v3) = W3 m ρ c (Proc.devRef .tc main_v3) :=
  (W7_of_ne m ρ c main_v3 (by decide)).trans (edge6_v3 m ρ c)
theorem edge4_v6 : W4 m ρ c (Proc.devRef .tc main_v6) = W3 m ρ c (Proc.devRef .tc main_v6) :=
  W4_of_ne m ρ c main_v6 (by decide)
theorem edge5_v6 : W5 m ρ c (Proc.devRef .tc main_v6) = W3 m ρ c (Proc.devRef .tc main_v6) := by
  refine Eq.trans (b := W4 m ρ c (Proc.devRef .tc main_v6)) ?_ (edge4_v6 m ρ c)
  stretch_keeps
theorem edge6_v6 : W6 m ρ c (Proc.devRef .tc main_v6) = W3 m ρ c (Proc.devRef .tc main_v6) :=
  (W6_of_ne m ρ c main_v6 (by decide)).trans (edge5_v6 m ρ c)
theorem edge7_v6 : W7 m ρ c (Proc.devRef .tc main_v6) = W3 m ρ c (Proc.devRef .tc main_v6) :=
  (W7_of_ne m ρ c main_v6 (by decide)).trans (edge6_v6 m ρ c)
theorem edge4_v31 : W4 m ρ c (Proc.devRef .tc main_v31) = W3 m ρ c (Proc.devRef .tc main_v31) :=
  W4_of_ne m ρ c main_v31 (by decide)
theorem edge5_v31 : W5 m ρ c (Proc.devRef .tc main_v31) = W3 m ρ c (Proc.devRef .tc main_v31) := by
  refine Eq.trans (b := W4 m ρ c (Proc.devRef .tc main_v31)) ?_ (edge4_v31 m ρ c)
  stretch_keeps
theorem edge6_v31 : W6 m ρ c (Proc.devRef .tc main_v31) = W3 m ρ c (Proc.devRef .tc main_v31) :=
  (W6_of_ne m ρ c main_v31 (by decide)).trans (edge5_v31 m ρ c)
theorem edge7_v31 : W7 m ρ c (Proc.devRef .tc main_v31) = W3 m ρ c (Proc.devRef .tc main_v31) :=
  (W7_of_ne m ρ c main_v31 (by decide)).trans (edge6_v31 m ρ c)

section OwnSpelling
variable {F : FTy → Type} [FloatOps F]

/-- The edge destinations, in this program's own operations. -/
def dstK (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- The in-degrees with self-loops, in this program's own operations. -/
def degK (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstK x1)) (broadcastInDim S1700000 ![] bcast_S_S1700000 (constant S_ .f32 0x3F800000#32))

/-- rsqrt(max(deg, 1)) where deg > 0, else 0, in this program's own operations. -/
def dinvK (x1 : (⟨S2x1600000, .i32⟩ : BufTy).Contents (Elt F)) : (⟨S100000, .f32⟩ : BufTy).Contents (Elt F) :=
  select (cmpf (F := F) .ogt (degK x1) (broadcastInDim S100000 ![] bcast_S_S100000 (constant S_ .f32 0x00000000#32))) (Host.rsqrt (maximumf (degK x1) (broadcastInDim S100000 ![] bcast_S_S100000 (constant S_ .f32 0x3F800000#32)))) (broadcastInDim S100000 ![] bcast_S_S100000 (id (constant S_ .f32 0x00000000#32)))

/-- They are the reference's: the two programs print the same operations. -/
theorem dstK_eq (x1 : (⟨S2x1600000, .i32⟩ : BufTy).Contents (Elt F)) : dstK x1 = Cert.Layers.dst x1 := rfl

theorem degK_eq (x1 : (⟨S2x1600000, .i32⟩ : BufTy).Contents (Elt F)) : degK x1 = Cert.Layers.deg x1 := by
  unfold degK Cert.Layers.deg
  rw [dstK_eq]
  rfl

theorem dinvK_eq (x1 : (⟨S2x1600000, .i32⟩ : BufTy).Contents (Elt F)) : dinvK x1 = Cert.Layers.dinv x1 := by
  unfold dinvK Cert.Layers.dinv
  rw [degK_eq]

end OwnSpelling

set_option maxRecDepth 65536 in
/-- After the first stretch: where the in-degree is positive, … -/
theorem degPos1 : W1 m ρ c (Proc.devRef .tc main_v12)
    = cmpf (F := Ideal) .ogt (degK (m ((c : Thread nD τ).loc main_arg1))) (broadcastInDim S100000 ![] bcast_S_S100000 (constant S_ .f32 0x00000000#32)) := by
  show StableHlo.after hostOps0 (W0 m ρ c) (Proc.devRef .tc main_v12) = _
  dsimp only [hostOps0]
  after_results_simp
  rfl

set_option maxRecDepth 65536 in
/-- … the inverse square root of max(deg, 1), … -/
theorem rsqrtDeg1 : W1 m ρ c (Proc.devRef .tc main_v15)
    = Host.rsqrt (F := Ideal) (maximumf (degK (F := Ideal) (m ((c : Thread nD τ).loc main_arg1)))
        (broadcastInDim S100000 ![] bcast_S_S100000 (constant (F := Ideal) S_ .f32 0x3F800000#32))) := by
  show StableHlo.after hostOps0 (W0 m ρ c) (Proc.devRef .tc main_v15) = _
  dsimp only [hostOps0]
  after_results_simp
  rfl

/-- … and the zero that masks the rest. -/
theorem zero1 : W1 m ρ c (Proc.devRef .tc main_cst_3) = constant (F := Ideal) S_ .f32 0x00000000#32 := by
  show StableHlo.after hostOps0 (W0 m ρ c) (Proc.devRef .tc main_cst_3) = _
  dsimp only [hostOps0]
  after_results_simp

/-- The masking stretch, from any contents: it selects between its second operand and the repeated third by the first. -/
theorem mask_step (Wv : Valuation τ sig (Elt Ideal)) (A : (⟨S100000, .i1⟩ : BufTy).Contents (Elt Ideal))
    (B : (⟨S100000, .f32⟩ : BufTy).Contents (Elt Ideal)) (C : (⟨S_, .f32⟩ : BufTy).Contents (Elt Ideal))
    (hA : Wv (Proc.devRef .tc main_v12) = A) (hB : Wv (Proc.devRef .tc main_v15) = B)
    (hC : Wv (Proc.devRef .tc main_cst_3) = C) :
    StableHlo.after hostOps0_1 Wv (Proc.devRef .tc main_v16)
      = select A B (broadcastInDim S100000 ![] bcast_S_S100000 (id C)) := by
  dsimp only [hostOps0_1]
  after_results_simp
  rw [hA, hB, hC]
  rfl

/-- The inverse square-root degrees after the first two stretches. -/
theorem dinv2 : W2 m ρ c (Proc.devRef .tc main_v16) = Cert.Layers.dinv (F := Ideal) (m ((c : Thread nD τ).loc main_arg1)) :=
  (mask_step (W1 m ρ c) _ _ _ (degPos1 m ρ c) (rsqrtDeg1 m ρ c) (zero1 m ρ c)).trans (dinvK_eq _)

set_option maxRecDepth 65536 in
/-- The edge sources after the first two stretches. -/
theorem src2 : W2 m ρ c (Proc.devRef .tc main_v3) = Cert.Layers.src (m ((c : Thread nD τ).loc main_arg1)) := by
  show StableHlo.after hostOps0_1 (StableHlo.after hostOps0 (W0 m ρ c)) (Proc.devRef .tc main_v3) = _
  dsimp only [hostOps0, hostOps0_1]
  after_results_simp
  rfl

set_option maxRecDepth 65536 in
/-- The edge destinations after the first two stretches. -/
theorem dst2 : W2 m ρ c (Proc.devRef .tc main_v6) = Cert.Layers.dst (m ((c : Thread nD τ).loc main_arg1)) := by
  show StableHlo.after hostOps0_1 (StableHlo.after hostOps0 (W0 m ρ c)) (Proc.devRef .tc main_v6) = _
  dsimp only [hostOps0, hostOps0_1]
  after_results_simp
  rfl

/-- The edge sources after the first three stretches. -/
theorem src3 : W3 m ρ c (Proc.devRef .tc main_v3) = Cert.Layers.src (m ((c : Thread nD τ).loc main_arg1)) := by
  refine Eq.trans (b := W2 m ρ c (Proc.devRef .tc main_v3)) ?_ (src2 m ρ c)
  stretch_keeps

/-- The edge destinations after the first three stretches. -/
theorem dst3 : W3 m ρ c (Proc.devRef .tc main_v6) = Cert.Layers.dst (m ((c : Thread nD τ).loc main_arg1)) := by
  refine Eq.trans (b := W2 m ρ c (Proc.devRef .tc main_v6)) ?_ (dst2 m ρ c)
  stretch_keeps

set_option maxRecDepth 65536 in
set_option maxHeartbeats 4000000 in
/-- The edge weights after the first three stretches: the third gathers the inverse square-root degrees at both ends
    of every edge and multiplies them. -/
theorem norm3 : W3 m ρ c (Proc.devRef .tc main_v31) = Cert.Layers.norm (m ((c : Thread nD τ).loc main_arg1)) := by
  have step : ∀ Wv : Valuation τ sig (Elt Ideal),
      Wv (Proc.devRef .tc main_v16) = Cert.Layers.dinv (F := Ideal) (m ((c : Thread nD τ).loc main_arg1)) →
      Wv (Proc.devRef .tc main_v3) = Cert.Layers.src (m ((c : Thread nD τ).loc main_arg1)) →
      Wv (Proc.devRef .tc main_v6) = Cert.Layers.dst (m ((c : Thread nD τ).loc main_arg1)) →
      StableHlo.after hostOps0_2 Wv (Proc.devRef .tc main_v31) = Cert.Layers.norm (m ((c : Thread nD τ).loc main_arg1)) := by
    intro Wv h16 h3 h6
    dsimp only [hostOps0_2]
    after_results_simp
    rw [h16, h3, h6]
    rfl
  exact step (W2 m ρ c) (dinv2 m ρ c) (src2 m ρ c) (dst2 m ρ c)

/-! ## The layers, boundary by boundary -/

/-- The first transform of the node features. -/
def xw1 : FVec Ideal ⟨2, ![100000, 128]⟩ .f32 := Cert.Spec.matRows (m ((c : Thread nD τ).loc main_arg0)) (m ((c : Thread nD τ).loc main_arg3))
/-- Its aggregation along the edges. -/
def a1 : FVec Ideal ⟨2, ![100000, 128]⟩ .f32 := Cert.Layers.agg (m ((c : Thread nD τ).loc main_arg1)) (xw1 m c)
/-- The first layer's output: bias, maximum with zero. -/
def h1 : FVec Ideal ⟨2, ![100000, 128]⟩ .f32 :=
  Cert.Spec.rowBiasRelu (a1 m c) (shapeCast S1x128 (m ((c : Thread nD τ).loc main_arg4)) Gen.shapeCasts_S128_S1x128)
/-- The second transform. -/
def xw2 : FVec Ideal ⟨2, ![100000, 128]⟩ .f32 := Cert.Spec.matRows (h1 m c) (m ((c : Thread nD τ).loc main_arg5))
/-- Its aggregation along the edges. -/
def a2 : FVec Ideal ⟨2, ![100000, 128]⟩ .f32 := Cert.Layers.agg (m ((c : Thread nD τ).loc main_arg1)) (xw2 m c)
/-- The second layer's output: bias. -/
def h2 : FVec Ideal ⟨2, ![100000, 128]⟩ .f32 :=
  Cert.Spec.rowBias (a2 m c) (shapeCast S1x128 (m ((c : Thread nD τ).loc main_arg6)) Gen.shapeCasts_S128_S1x128)

/-- After region 0 its output array holds the first transform. -/
theorem at4_xw1 : W4 m ρ c (Proc.devRef .tc main_v32) = xw1 m c := by
  refine (W4_arr m ρ c 2).trans ?_
  refine (Cert.KernelIdeal.Region0.final (V3 m ρ) c).trans ?_
  show Cert.Spec.matRows (W3 m ρ c (Proc.devRef .tc main_arg0)) (W3 m ρ c (Proc.devRef .tc main_arg3)) = _
  rw [at3_arg0 m ρ c, at3_arg3 m ρ c]
  rfl

set_option maxRecDepth 65536 in
set_option maxHeartbeats 4000000 in
/-- The stretch after region 0 aggregates it along the edges … -/
theorem at5_a1 : W5 m ρ c (Proc.devRef .tc main_v45) = a1 m c := by
  show StableHlo.after hostOps1 (W4 m ρ c) (Proc.devRef .tc main_v45) = _
  dsimp only [hostOps1]
  after_results_simp
  rw [at4_xw1 m ρ c, edge4_v3 m ρ c, edge4_v6 m ρ c, edge4_v31 m ρ c, src3 m ρ c, dst3 m ρ c, norm3 m ρ c]
  rfl

/-- … and makes the first bias vector a row. -/
theorem at5_b1 : W5 m ρ c (Proc.devRef .tc main_v46) = shapeCast S1x128 (m ((c : Thread nD τ).loc main_arg4)) Gen.shapeCasts_S128_S1x128 := by
  show StableHlo.after hostOps1 (W4 m ρ c) (Proc.devRef .tc main_v46) = _
  dsimp only [hostOps1]
  after_results_simp
  rw [at4_arg4 m ρ c]
  rfl

/-- After region 1 its output array holds the first layer's output. -/
theorem at6_h1 : W6 m ρ c (Proc.devRef .tc main_v47) = h1 m c := by
  refine (W6_arr m ρ c 2).trans ?_
  refine (Cert.KernelIdeal.Region1.final (V5 m ρ) c).trans ?_
  show Cert.Spec.rowBiasRelu (W5 m ρ c (Proc.devRef .tc main_v45)) (W5 m ρ c (Proc.devRef .tc main_v46)) = _
  rw [at5_a1 m ρ c, at5_b1 m ρ c]
  rfl

/-- After region 2 its output array holds the second transform. -/
theorem at7_xw2 : W7 m ρ c (Proc.devRef .tc main_v48) = xw2 m c := by
  refine (W7_arr m ρ c 2).trans ?_
  refine (Cert.KernelIdeal.Region2.final (V6 m ρ) c).trans ?_
  show Cert.Spec.matRows (W6 m ρ c (Proc.devRef .tc main_v47)) (W6 m ρ c (Proc.devRef .tc main_arg5)) = _
  rw [at6_h1 m ρ c, at6_arg5 m ρ c]
  rfl

set_option maxRecDepth 65536 in
set_option maxHeartbeats 4000000 in
/-- The stretch after region 2 aggregates it along the edges … -/
theorem at8_a2 : W8 m ρ c (Proc.devRef .tc main_v61) = a2 m c := by
  show StableHlo.after hostOps3 (W7 m ρ c) (Proc.devRef .tc main_v61) = _
  dsimp only [hostOps3]
  after_results_simp
  rw [at7_xw2 m ρ c, edge7_v3 m ρ c, edge7_v6 m ρ c, edge7_v31 m ρ c, src3 m ρ c, dst3 m ρ c, norm3 m ρ c]
  rfl

/-- … and makes the second bias vector a row. -/
theorem at8_b2 : W8 m ρ c (Proc.devRef .tc main_v62) = shapeCast S1x128 (m ((c : Thread nD τ).loc main_arg6)) Gen.shapeCasts_S128_S1x128 := by
  show StableHlo.after hostOps3 (W7 m ρ c) (Proc.devRef .tc main_v62) = _
  dsimp only [hostOps3]
  after_results_simp
  rw [at7_arg6 m ρ c]
  rfl

/-- After region 3 its output array holds the second layer's output. -/
theorem at9_h2 : W9 m ρ c (Proc.devRef .tc main_v63) = h2 m c := by
  refine (W9_arr m ρ c 2).trans ?_
  refine (Cert.KernelIdeal.Region3.final (V8 m ρ) c).trans ?_
  show Cert.Spec.rowBias (W8 m ρ c (Proc.devRef .tc main_v61)) (W8 m ρ c (Proc.devRef .tc main_v62)) = _
  rw [at8_a2 m ρ c, at8_b2 m ρ c]
  rfl

/-- The last stretch sums the rows of each graph, … -/
theorem at10_sums : W10 m ρ c (Proc.devRef .tc main_v66) = Cert.Layers.pool (m ((c : Thread nD τ).loc main_arg2)) (h2 m c) := by
  show StableHlo.after hostOps4 (W9 m ρ c) (Proc.devRef .tc main_v66) = _
  dsimp only [hostOps4]
  after_results_simp
  rw [at9_h2 m ρ c, at9_arg2 m ρ c]
  rfl

/-- … counts the nodes of each graph, as a column, … -/
theorem at10_cnt : W10 m ρ c (Proc.devRef .tc main_v71)
    = shapeCast S64x1 (Cert.Layers.counts (F := Ideal) (m ((c : Thread nD τ).loc main_arg2))) Gen.shapeCasts_S64_S64x1 := by
  show StableHlo.after hostOps4 (W9 m ρ c) (Proc.devRef .tc main_v71) = _
  dsimp only [hostOps4]
  after_results_simp
  rw [at9_arg2 m ρ c]
  rfl

/-- … and makes the head's two bias vectors rows. -/
theorem at10_bl1 : W10 m ρ c (Proc.devRef .tc main_v72) = shapeCast S1x64 (m ((c : Thread nD τ).loc main_arg8)) Gen.shapeCasts_S64_S1x64 := by
  show StableHlo.after hostOps4 (W9 m ρ c) (Proc.devRef .tc main_v72) = _
  dsimp only [hostOps4]
  after_results_simp
  rw [at9_arg8 m ρ c]
  rfl

theorem at10_bl2 : W10 m ρ c (Proc.devRef .tc main_v73) = shapeCast S1x1 (m ((c : Thread nD τ).loc main_arg10)) Gen.shapeCasts_S1_S1x1 := by
  show StableHlo.after hostOps4 (W9 m ρ c) (Proc.devRef .tc main_v73) = _
  dsimp only [hostOps4]
  after_results_simp
  rw [at9_arg10 m ρ c]
  rfl

/-- After region 4 the result buffer holds the head of those. -/
theorem at11_out : W11 m ρ c (Proc.devRef .tc main_v74)
    = k4_pay1 (F := Ideal) (shapeCast S64x1 (Cert.Layers.counts (F := Ideal) (m ((c : Thread nD τ).loc main_arg2))) Gen.shapeCasts_S64_S64x1)
        (Cert.Layers.pool (m ((c : Thread nD τ).loc main_arg2)) (h2 m c)) (m ((c : Thread nD τ).loc main_arg7)) (shapeCast S1x64 (m ((c : Thread nD τ).loc main_arg8)) Gen.shapeCasts_S64_S1x64)
        (m ((c : Thread nD τ).loc main_arg9)) (shapeCast S1x1 (m ((c : Thread nD τ).loc main_arg10)) Gen.shapeCasts_S1_S1x1) := by
  refine (W11_arr m ρ c 6).trans ?_
  refine (Cert.KernelIdeal.Region4.final (V10 m ρ) c).trans ?_
  show k4_pay1 (F := Ideal) (W10 m ρ c (Proc.devRef .tc main_v71)) (W10 m ρ c (Proc.devRef .tc main_v66))
      (W10 m ρ c (Proc.devRef .tc main_arg7)) (W10 m ρ c (Proc.devRef .tc main_v72))
      (W10 m ρ c (Proc.devRef .tc main_arg9)) (W10 m ρ c (Proc.devRef .tc main_v73)) = _
  rw [at10_cnt m ρ c, at10_sums m ρ c, at10_arg7 m ρ c, at10_bl1 m ρ c, at10_arg9 m ρ c, at10_bl2 m ρ c]

end Cert.KernelIdeal.Fold

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«169793_j61229053772176_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«169793_j61229053772176_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«169793_j61229053772176_1_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.LibColumnCast.lean ====
/-
  A vector made a column, read at an entry.

  Reshaping a vector of a entries to an [a, 1] matrix keeps the row-major order, so the matrix's entry (i, 0) is the
  vector's entry i. Generic in the extent and the element type.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibGcnTile.lean ====
/-
  The self-loop, bias and rectifier stage of a graph-convolution layer, read at an entry (p, q) in its two spellings.

  * In a row tile: the aggregated block plus the projected block times a column of per-row weights, the column a
    `[A, 1]` block broadcast across the lanes; plus a `[1, B]` bias row broadcast down the rows; then the maximum
    with the zero splat.
  * In a host program: the same sum with the weights a vector `[A]` made a column `[A, 1]` and repeated to
    `[A, B]`, the bias a vector `[B]` made a row `[1, B]` and repeated to `[A, B]`, and the zero a scalar
    constant repeated to `[A, B]`.

  Both read, at (p, q), `max ((agg (p, q) + xw (p, q) * w p) + bias q) 0` on the extended reals.  Generic in the two
  extents.
-/
import Idealize.ShloMosaic.Lib.ValueLayout
import Idealize.ShloMosaic.Lib.Pipeline.Value
import Idealize.ShloMosaic.Lib.ValueIdx
import proofs.«169793_j61229053772176_1_alg».proof.Proof.LibHostRowCol
import proofs.«169793_j61229053772176_1_alg».proof.Proof.LibHostBiasRelu

noncomputable section

namespace Cert.Lib

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stage in a row tile, at entry (p, q). -/
theorem tileSelfBiasRelu_apply {A B : ℕ} (x0 x1 : FVec Ideal ⟨2, ![A, B]⟩ .f32) (x2 : FVec Ideal ⟨2, ![A, 1]⟩ .f32)
    (x3 : FVec Ideal ⟨2, ![1, B]⟩ .f32)
    (h0 : (⟨2, ![A, B]⟩ : Shape).ShapeCasts ⟨2, ![A, B]⟩) (h2 : (⟨2, ![A, 1]⟩ : Shape).ShapeCasts ⟨2, ![A, 1]⟩)
    (hb2 : (⟨2, ![A, 1]⟩ : Shape).Broadcasts ⟨2, ![A, B]⟩) (h3 : (⟨2, ![1, B]⟩ : Shape).ShapeCasts ⟨2, ![1, B]⟩)
    (hb3 : (⟨2, ![1, B]⟩ : Shape).Broadcasts ⟨2, ![A, B]⟩) (p : Fin A) (q : Fin B) :
    maximumf (addf (addf (shapeCast ⟨2, ![A, B]⟩ x0 h0)
          (mulf (shapeCast ⟨2, ![A, B]⟩ x1 h0) (broadcastTo ⟨2, ![A, B]⟩ (shapeCast ⟨2, ![A, 1]⟩ x2 h2) hb2)))
        (broadcastTo ⟨2, ![A, B]⟩ (shapeCast ⟨2, ![1, B]⟩ x3 h3) hb3))
      (broadcast ⟨2, ![A, B]⟩ (Scalar.ofBits (F := Ideal) .f32 0x00000000#32)) (ix2 p q)
      = max ((x0 (ix2 p q) + x1 (ix2 p q) * x2 (ix2 p (0 : Fin 1))) + x3 (ix2 (0 : Fin 1) q))
          (Ideal.ofBits .f32 0x00000000#32) := by
  rw [maximumf_apply, addf_apply, addf_apply, mulf_apply, shapeCast_self, shapeCast_self, shapeCast_self,
    shapeCast_self, broadcastTo_a1_ab_apply, broadcastTo_1b_ab_apply, broadcast_apply]
  rfl

/-- The stage in a host program, at entry (p, q). -/
theorem hostSelfBiasRelu_apply {A B : ℕ} (agg xw : FVec Ideal ⟨2, ![A, B]⟩ .f32) (w : FVec Ideal ⟨1, ![A]⟩ .f32)
    (bias : FVec Ideal ⟨1, ![B]⟩ .f32)
    (hc1 : (⟨1, ![A]⟩ : Shape).BroadcastsInDim ⟨2, ![A, 1]⟩ (![0] : Fin 1 → Fin 2))
    (hc2 : (⟨2, ![A, 1]⟩ : Shape).BroadcastsInDim ⟨2, ![A, B]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (hz : (⟨0, ![]⟩ : Shape).BroadcastsInDim ⟨2, ![A, B]⟩ (![] : Fin 0 → Fin 2)) (p : Fin A) (q : Fin B) :
    maximumf (addf (addf agg (mulf xw (broadcastInDim ⟨2, ![A, B]⟩ ![0, 1] hc2 (broadcastInDim ⟨2, ![A, 1]⟩ ![0] hc1 w))))
          (broadcastInDim ⟨2, ![A, B]⟩ ![0, 1] hr2 (broadcastInDim ⟨2, ![1, B]⟩ ![1] hr1 bias)))
        (broadcastInDim ⟨2, ![A, B]⟩ ![] hz (constant (F := Ideal) ⟨0, ![]⟩ .f32 0x00000000#32)) (ix2 p q)
      = max ((agg (ix2 p q) + xw (ix2 p q) * w (ix1 p)) + bias (ix1 q)) (Ideal.ofBits .f32 0x00000000#32) := by
  rw [hostBiasRelu_apply _ bias hr1 hr2 hz p q, addf_apply, mulf_apply, bcast_col_cols_apply w hc1 hc2 p q]

end Cert.Lib

end
-- ==== Proof.Bridge.lean ====
/-
  The kernel's steps are the reference's layers.

  Entry by entry on the extended reals: the tile-by-tile feature transform is the host's matrix product; the bias
  step (with the maximum with zero) over a bias made a [1, 128] row is the host's bias vector made a row, repeated
  down the rows and added (then the maximum with the repeated zero); and the head body is the host's head. In the
  head both sides are, at graph g: the mean row sums(g, ·) / max(count g, 1); the affine image of that row with the
  maximum with zero; the affine image of the result in one column; and 1 / (1 + exp(−·)) of it, which is what the
  logistic function is on the extended reals. A matrix product into a zero accumulator is the sum of products at
  any contraction precision; the count column [64, 1] read at (g, 0) and the count vector read at g are one entry.
-/
import proofs.«169793_j61229053772176_1_alg».proof.Proof.Layers
import proofs.«169793_j61229053772176_1_alg».proof.Proof.Spec
import proofs.«169793_j61229053772176_1_alg».proof.Proof.Gen.KernelIdeal.Skeleton
import proofs.«169793_j61229053772176_1_alg».proof.Proof.LibMatmul2
import proofs.«169793_j61229053772176_1_alg».proof.Proof.LibAffineLayer
import proofs.«169793_j61229053772176_1_alg».proof.Proof.LibHostDot2
import proofs.«169793_j61229053772176_1_alg».proof.Proof.LibHostRowCol
import proofs.«169793_j61229053772176_1_alg».proof.Proof.LibHostBiasRelu
import proofs.«169793_j61229053772176_1_alg».proof.Proof.LibColumnCast
import proofs.«169793_j61229053772176_1_alg».proof.Proof.LibGcnTile
import Idealize.ShloMosaic.Lib.IdealHost
import Idealize.ShloMosaic.Lib.ValueLayout

noncomputable section

namespace Cert.Bridge

open Idealize.ShloMosaic Idealize.ShloMosaic.ValueIdx

/-! ## The tiled steps -/

/-- The host's product of the node features with a weight matrix, entry by entry. -/
theorem matRows_eq_dense (x : FVec Ideal ⟨2, ![100000, 128]⟩ .f32) (w : FVec Ideal ⟨2, ![128, 128]⟩ .f32) :
    Cert.Spec.matRows x w = Cert.Layers.dense (F := Ideal) x w := by
  funext i
  obtain ⟨p, q, rfl⟩ : ∃ (p : Fin 100000) (q : Fin 128), i = ix2 p q := ⟨i 0, i 1, eq_ix2 i⟩
  unfold Cert.Layers.dense
  rw [show Cert.ReferenceIdeal.dot_S100000x128_S128x128_S100000x128_1_0_0_1_n_n
      = Cert.Lib.plain2 (A := 100000) (K := 128) (B := 128) Cert.ReferenceIdeal.Gen.dot_S100000x128_S128x128_S100000x128_1_0_0_1_n_n_wf from rfl]
  exact (Cert.Lib.hostDot2_apply _ x w p q).symm

/-- The host's bias vector made a row, repeated and added, is the bias row added to every row. -/
theorem rowBias_eq (u : FVec Ideal ⟨2, ![100000, 128]⟩ .f32) (b : FVec Ideal ⟨1, ![128]⟩ .f32)
    (h : (⟨1, ![128]⟩ : Shape).ShapeCasts ⟨2, ![1, 128]⟩) :
    Cert.Spec.rowBias u (shapeCast ⟨2, ![1, 128]⟩ b h) = Cert.Layers.addBias (F := Ideal) u b := by
  funext i
  obtain ⟨p, q, rfl⟩ : ∃ (p : Fin 100000) (q : Fin 128), i = ix2 p q := ⟨i 0, i 1, eq_ix2 i⟩
  unfold Cert.Layers.addBias
  rw [addf_apply, Cert.Lib.bcast_row_rows_apply b _ _ p q]
  show u (ix2 p q) + shapeCast ⟨2, ![1, 128]⟩ b h (ix2 (0 : Fin 1) q) = _
  rw [shapeCast_a_1a_apply b h (0 : Fin 1) q]

/-- The same under the maximum with zero. -/
theorem rowBiasRelu_eq (u : FVec Ideal ⟨2, ![100000, 128]⟩ .f32) (b : FVec Ideal ⟨1, ![128]⟩ .f32)
    (h : (⟨1, ![128]⟩ : Shape).ShapeCasts ⟨2, ![1, 128]⟩) :
    Cert.Spec.rowBiasRelu u (shapeCast ⟨2, ![1, 128]⟩ b h) = Cert.Layers.relu (Cert.Layers.addBias (F := Ideal) u b) := by
  funext i
  obtain ⟨p, q, rfl⟩ : ∃ (p : Fin 100000) (q : Fin 128), i = ix2 p q := ⟨i 0, i 1, eq_ix2 i⟩
  unfold Cert.Layers.relu Cert.Layers.addBias
  refine Eq.trans ?_ (Cert.Lib.hostBiasRelu_apply (A := 100000) (B := 128) u b _ _ _ p q).symm
  show max (u (ix2 p q) + shapeCast ⟨2, ![1, 128]⟩ b h (ix2 (0 : Fin 1) q)) _ = _
  rw [shapeCast_a_1a_apply b h (0 : Fin 1) q]

/-! ## The head, stage by stage -/

/-- The mean row of a graph: its summed rows over max(count, 1). -/
def mean (sums : FVec Ideal ⟨2, ![64, 128]⟩ .f32) (cnt : FVec Ideal ⟨1, ![64]⟩ .f32) : FVec Ideal ⟨2, ![64, 128]⟩ .f32 :=
  fun i => Ideal.div (sums i) (max (cnt (ix1 (i 0))) 1)

/-- An affine map of every row: [A, K] · [K, B] plus a bias vector. -/
def affine {A K B : ℕ} (l : FVec Ideal ⟨2, ![A, K]⟩ .f32) (r : FVec Ideal ⟨2, ![K, B]⟩ .f32) (v : FVec Ideal ⟨1, ![B]⟩ .f32) :
    FVec Ideal ⟨2, ![A, B]⟩ .f32 :=
  fun i => (∑ k : Fin K, l (ix2 (i 0) k) * r (ix2 k (i 1))) + v (ix1 (i 1))

/-- The maximum with zero. -/
def pos {A B : ℕ} (z : FVec Ideal ⟨2, ![A, B]⟩ .f32) : FVec Ideal ⟨2, ![A, B]⟩ .f32 := fun i => max (z i) 0

/-- 1 / (1 + exp(−·)). -/
def sigm {A B : ℕ} (z : FVec Ideal ⟨2, ![A, B]⟩ .f32) : FVec Ideal ⟨2, ![A, B]⟩ .f32 := fun i => Ideal.logistic (z i)

section Kernel

/-- A product into the zero accumulator does not depend on the contraction precision. -/
theorem matmul_prec {sl sr so : Shape} {φ₁ φ₂ : FTy} (d : DotDims sl sr so) (prec : Option ContractPrecision)
    (l : FVec Ideal sl φ₁) (r : FVec Ideal sr φ₂) (acc : FVec Ideal so .f32) : matmul d prec l r acc = matmul d none l r acc := rfl

/-- The body's mean: the count column broadcast along the rows, under the quotient. -/
theorem kernel_mean (sums : FVec Ideal ⟨2, ![64, 128]⟩ .f32) (cnt : FVec Ideal ⟨1, ![64]⟩ .f32)
    (h1 : (⟨1, ![64]⟩ : Shape).ShapeCasts ⟨2, ![64, 1]⟩) (hb : (⟨2, ![64, 1]⟩ : Shape).Broadcasts ⟨2, ![64, 128]⟩) :
    divf sums (broadcastTo ⟨2, ![64, 128]⟩ (maximumf (shapeCast ⟨2, ![64, 1]⟩ cnt h1)
        (broadcast ⟨2, ![64, 1]⟩ (Scalar.ofBits (F := Ideal) .f32 0x3F800000#32))) hb) = mean sums cnt := by
  funext i
  obtain ⟨g, k, rfl⟩ : ∃ (g : Fin 64) (k : Fin 128), i = ix2 g k := ⟨i 0, i 1, eq_ix2 i⟩
  rw [divf_apply, Cert.Lib.broadcastTo_a1_ab_apply _ hb g k, maximumf_apply, Cert.Lib.shapeCast_a_a1_apply cnt h1 g (0 : Fin 1), broadcast_apply]
  show Ideal.div (sums (ix2 g k)) (max (cnt (ix1 g)) (Ideal.ofBits .f32 0x3F800000#32)) = _
  rw [Ideal.ofBits_one_f32]
  rfl

/-- The body's affine steps: a product into the zero accumulator plus a bias row broadcast down the rows. -/
theorem kernel_affine {A K B : ℕ} (wf : DotDims.WF ⟨2, ![A, K]⟩ ⟨2, ![K, B]⟩ ⟨2, ![A, B]⟩ [1] [0] [0] [1] [] [])
    (prec : Option ContractPrecision) (l : FVec Ideal ⟨2, ![A, K]⟩ .f32) (r : FVec Ideal ⟨2, ![K, B]⟩ .f32) (v : FVec Ideal ⟨1, ![B]⟩ .f32)
    (hc : (⟨1, ![B]⟩ : Shape).ShapeCasts ⟨2, ![1, B]⟩) (hb : (⟨2, ![1, B]⟩ : Shape).Broadcasts ⟨2, ![A, B]⟩) :
    addf (matmul (Cert.Lib.plain2 wf) prec l r (constant ⟨2, ![A, B]⟩ .f32 0x00000000#32))
        (broadcastTo ⟨2, ![A, B]⟩ (shapeCast ⟨2, ![1, B]⟩ v hc) hb) = affine l r v := by
  funext i
  obtain ⟨p, q, rfl⟩ : ∃ (p : Fin A) (q : Fin B), i = ix2 p q := ⟨i 0, i 1, eq_ix2 i⟩
  rw [matmul_prec]
  exact Cert.Lib.affine_apply wf l r v hc hb p q

/-- The body's maximum with the splat zero. -/
theorem kernel_pos {A B : ℕ} (z : FVec Ideal ⟨2, ![A, B]⟩ .f32) :
    maximumf z (broadcast ⟨2, ![A, B]⟩ (Scalar.ofBits (F := Ideal) .f32 0x00000000#32)) = pos z := by
  funext i
  rw [maximumf_apply, broadcast_apply]
  show max (z i) (Ideal.ofBits .f32 0x00000000#32) = _
  rw [Ideal.ofBits_zero_f32]
  rfl

end Kernel

section Host

/-- The host's mean: the count vector under the maximum with one, made a column and repeated along the rows. -/
theorem host_mean (sums : FVec Ideal ⟨2, ![64, 128]⟩ .f32) (cnt : FVec Ideal ⟨1, ![64]⟩ .f32)
    (h0 : (⟨0, ![]⟩ : Shape).BroadcastsInDim ⟨1, ![64]⟩ (![] : Fin 0 → Fin 1))
    (h1 : (⟨1, ![64]⟩ : Shape).BroadcastsInDim ⟨2, ![64, 1]⟩ (![0] : Fin 1 → Fin 2))
    (h2 : (⟨2, ![64, 1]⟩ : Shape).BroadcastsInDim ⟨2, ![64, 128]⟩ (![0, 1] : Fin 2 → Fin 2)) :
    Host.divf sums (broadcastInDim ⟨2, ![64, 128]⟩ ![0, 1] h2 (broadcastInDim ⟨2, ![64, 1]⟩ ![0] h1
        (maximumf cnt (broadcastInDim ⟨1, ![64]⟩ ![] h0 (constant (F := Ideal) ⟨0, ![]⟩ .f32 0x3F800000#32))))) = mean sums cnt := by
  funext i
  obtain ⟨g, k, rfl⟩ : ∃ (g : Fin 64) (k : Fin 128), i = ix2 g k := ⟨i 0, i 1, eq_ix2 i⟩
  rw [hostDivf_apply, Cert.Lib.bcast_col_cols_apply _ h1 h2 g k, maximumf_apply, Cert.Lib.bcast_scalar_apply _ h0, constant_apply,
    Ideal.ofBits_one_f32]
  rfl

/-- The host's affine steps: a product plus a bias vector made a row and repeated down the rows. -/
theorem host_affine {A K B : ℕ} (wf : DotDims.WF ⟨2, ![A, K]⟩ ⟨2, ![K, B]⟩ ⟨2, ![A, B]⟩ [1] [0] [0] [1] [] [])
    (l : FVec Ideal ⟨2, ![A, K]⟩ .f32) (r : FVec Ideal ⟨2, ![K, B]⟩ .f32) (v : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) :
    addf (Host.dotGeneral (Cert.Lib.plain2 wf) none l r)
        (broadcastInDim ⟨2, ![A, B]⟩ ![0, 1] h2 (broadcastInDim ⟨2, ![1, B]⟩ ![1] h1 v)) = affine l r v := by
  funext i
  obtain ⟨p, q, rfl⟩ : ∃ (p : Fin A) (q : Fin B), i = ix2 p q := ⟨i 0, i 1, eq_ix2 i⟩
  rw [addf_apply, Cert.Lib.hostDot2_apply wf l r p q, Cert.Lib.bcast_row_rows_apply v h1 h2 p q]
  rfl

/-- The host's maximum with the repeated zero. -/
theorem host_pos {A B : ℕ} (z : FVec Ideal ⟨2, ![A, B]⟩ .f32)
    (h0 : (⟨0, ![]⟩ : Shape).BroadcastsInDim ⟨2, ![A, B]⟩ (![] : Fin 0 → Fin 2)) :
    maximumf z (broadcastInDim ⟨2, ![A, B]⟩ ![] h0 (constant (F := Ideal) ⟨0, ![]⟩ .f32 0x00000000#32)) = pos z := by
  funext i
  rw [maximumf_apply, Cert.Lib.bcast_scalar_apply _ h0, constant_apply, Ideal.ofBits_zero_f32]
  rfl

/-- The host's 1 / (1 + exp(−z)) is the logistic function, entry by entry. -/
theorem host_sigm {A B : ℕ} (z : FVec Ideal ⟨2, ![A, B]⟩ .f32)
    (h0 : (⟨0, ![]⟩ : Shape).BroadcastsInDim ⟨2, ![A, B]⟩ (![] : Fin 0 → Fin 2)) :
    Host.divf (broadcastInDim ⟨2, ![A, B]⟩ ![] h0 (constant (F := Ideal) ⟨0, ![]⟩ .f32 0x3F800000#32))
        (addf (broadcastInDim ⟨2, ![A, B]⟩ ![] h0 (constant (F := Ideal) ⟨0, ![]⟩ .f32 0x3F800000#32)) (Host.exp (Host.negf z)))
      = sigm z := by
  funext i
  rw [hostDivf_apply, addf_apply, Cert.Lib.bcast_scalar_apply _ h0, constant_apply, Ideal.ofBits_one_f32]
  rfl

end Host

/-! ## The head, whole -/

/-- The head body, of the count column, the summed rows, the two weight matrices and the two bias rows, is the
    host's head of the count vector, the summed rows, the weights and the bias vectors: both are
    1 / (1 + exp(−·)) of the affine image of the positive part of the affine image of the mean rows. -/
theorem head_eq (sums : FVec Ideal ⟨2, ![64, 128]⟩ .f32) (cnt : FVec Ideal ⟨1, ![64]⟩ .f32)
    (x7 : FVec Ideal ⟨2, ![128, 64]⟩ .f32) (x8 : FVec Ideal ⟨1, ![64]⟩ .f32)
    (x9 : FVec Ideal ⟨2, ![64, 1]⟩ .f32) (x10 : FVec Ideal ⟨1, ![1]⟩ .f32)
    (h1 : (⟨1, ![64]⟩ : Shape).ShapeCasts ⟨2, ![64, 1]⟩) (h2 : (⟨1, ![64]⟩ : Shape).ShapeCasts ⟨2, ![1, 64]⟩)
    (h3 : (⟨1, ![1]⟩ : Shape).ShapeCasts ⟨2, ![1, 1]⟩) :
    Cert.KernelIdeal.Gen.k4_pay1 (F := Ideal) (shapeCast ⟨2, ![64, 1]⟩ cnt h1) sums x7 (shapeCast ⟨2, ![1, 64]⟩ x8 h2) x9
        (shapeCast ⟨2, ![1, 1]⟩ x10 h3)
      = Cert.Layers.head (F := Ideal) sums cnt x7 x8 x9 x10 := by
  have hk : Cert.KernelIdeal.Gen.k4_pay1 (F := Ideal) (shapeCast ⟨2, ![64, 1]⟩ cnt h1) sums x7 (shapeCast ⟨2, ![1, 64]⟩ x8 h2) x9
        (shapeCast ⟨2, ![1, 1]⟩ x10 h3) = sigm (affine (pos (affine (mean sums cnt) x7 x8)) x9 x10) := by
    unfold Cert.KernelIdeal.Gen.k4_pay1
    simp only [shapeCast_self]
    rw [show Cert.KernelIdeal.dot_S64x128_S128x64_S64x64_1_0_0_1_n_n
          = Cert.Lib.plain2 (A := 64) (K := 128) (B := 64) Cert.KernelIdeal.Gen.dot_S64x128_S128x64_S64x64_1_0_0_1_n_n_wf from rfl,
      show Cert.KernelIdeal.dot_S64x64_S64x1_S64x1_1_0_0_1_n_n
          = Cert.Lib.plain2 (A := 64) (K := 64) (B := 1) Cert.KernelIdeal.Gen.dot_S64x64_S64x1_S64x1_1_0_0_1_n_n_wf from rfl]
    rw [kernel_mean, kernel_affine, kernel_pos, kernel_affine]
    rfl
  have hr : Cert.Layers.head (F := Ideal) sums cnt x7 x8 x9 x10 = sigm (affine (pos (affine (mean sums cnt) x7 x8)) x9 x10) := by
    unfold Cert.Layers.head
    rw [show Cert.ReferenceIdeal.dot_S64x128_S128x64_S64x64_1_0_0_1_n_n
          = Cert.Lib.plain2 (A := 64) (K := 128) (B := 64) Cert.ReferenceIdeal.Gen.dot_S64x128_S128x64_S64x64_1_0_0_1_n_n_wf from rfl,
      show Cert.ReferenceIdeal.dot_S64x64_S64x1_S64x1_1_0_0_1_n_n
          = Cert.Lib.plain2 (A := 64) (K := 64) (B := 1) Cert.ReferenceIdeal.Gen.dot_S64x64_S64x1_S64x1_1_0_0_1_n_n_wf from rfl]
    rw [host_mean, host_affine, host_pos, host_affine, host_sigm]
  exact hk.trans hr.symm

end Cert.Bridge

end
-- ==== Proof.Value.lean ====
/-
  The kernel program's result is the reference's model of the arguments.

  The result buffer, walked back through the boundaries, is the head body of the pooled second layer, where each
  layer is the kernel's tiled bias step of the aggregated tiled transform. Each of those steps is the reference's
  layer function of the same arrays, so the whole is the reference's model of the launch contents of the arguments.
-/
import proofs.«169793_j61229053772176_1_alg».proof.Proof.Fold
import proofs.«169793_j61229053772176_1_alg».proof.Proof.Bridge

noncomputable section

namespace Cert.KernelIdeal.Fold

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The first transform is the host's product. -/
theorem xw1_eq : xw1 m c = Cert.Layers.dense (F := Ideal) (m ((c : Thread nD τ).loc main_arg0)) (m ((c : Thread nD τ).loc main_arg3)) :=
  Cert.Bridge.matRows_eq_dense _ _

/-- The first layer's output is the host's first layer. -/
theorem h1_eq : h1 m c = Cert.Layers.relu (Cert.Layers.addBias (Cert.Layers.agg (m ((c : Thread nD τ).loc main_arg1))
    (Cert.Layers.dense (F := Ideal) (m ((c : Thread nD τ).loc main_arg0)) (m ((c : Thread nD τ).loc main_arg3)))) (m ((c : Thread nD τ).loc main_arg4))) := by
  unfold h1 a1
  rw [xw1_eq m c]
  exact Cert.Bridge.rowBiasRelu_eq _ _ _

/-- The second transform is the host's product of the first layer's output. -/
theorem xw2_eq : xw2 m c = Cert.Layers.dense (F := Ideal) (Cert.Layers.relu (Cert.Layers.addBias (Cert.Layers.agg (m ((c : Thread nD τ).loc main_arg1))
    (Cert.Layers.dense (F := Ideal) (m ((c : Thread nD τ).loc main_arg0)) (m ((c : Thread nD τ).loc main_arg3)))) (m ((c : Thread nD τ).loc main_arg4)))) (m ((c : Thread nD τ).loc main_arg5)) := by
  unfold xw2
  rw [h1_eq m c]
  exact Cert.Bridge.matRows_eq_dense _ _

/-- The second layer's output is the host's second layer. -/
theorem h2_eq : h2 m c = Cert.Layers.addBias (Cert.Layers.agg (m ((c : Thread nD τ).loc main_arg1)) (Cert.Layers.dense (F := Ideal)
    (Cert.Layers.relu (Cert.Layers.addBias (Cert.Layers.agg (m ((c : Thread nD τ).loc main_arg1))
      (Cert.Layers.dense (F := Ideal) (m ((c : Thread nD τ).loc main_arg0)) (m ((c : Thread nD τ).loc main_arg3)))) (m ((c : Thread nD τ).loc main_arg4)))) (m ((c : Thread nD τ).loc main_arg5)))) (m ((c : Thread nD τ).loc main_arg6)) := by
  unfold h2 a2
  rw [xw2_eq m c]
  exact Cert.Bridge.rowBias_eq _ _ _

/-- The result buffer after the run: the reference's model of the arguments as launched. -/
theorem value : W11 m ρ c (Proc.devRef .tc main_v74)
    = Cert.Layers.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  refine (at11_out m ρ c).trans ?_
  refine (Cert.Bridge.head_eq _ _ _ _ _ _ _ _ _).trans ?_
  unfold Cert.Layers.model
  rw [h2_eq m c]

end Cert.KernelIdeal.Fold

end
-- ==== Proof.lean ====
/-
  A two-layer graph convolution with a pooled head: the kernel program against its reference, on the extended reals.

  The reference is one host program: self-loops appended to the edge list, symmetric degree normalisation, two layers
  "transform the rows, aggregate along the edges, add a bias" (the first with a maximum with zero), a mean over the
  nodes of each graph, and a two-layer head ending in 1 / (1 + exp(−·)). The kernel program computes the same things in
  the same order, with five of the steps as tiled kernels: the two row transforms (20 tiles of 5000 rows against the
  whole weight matrix), the two bias steps (20 tiles of 5000 rows), and the head (one tile). On the extended reals a
  tile of a row transform is the same rows of the whole product, a change of float format is the identity, a product
  into a zero accumulator is the host's product, and the logistic function is 1 / (1 + exp(−·)); so each kernel step is
  the reference's layer function of the same arrays, and the two programs end with one function of the arguments.
  No law used needs the inputs to be finite, so the precondition is never opened. The idealization rewrote nothing.

  The three frames are the generated ones (the reference's is its run with the result dropped).
-/
import proofs.«169793_j61229053772176_1_alg».proof.Defs
import proofs.«169793_j61229053772176_1_alg».proof.Proof.Gen.Kernel
import proofs.«169793_j61229053772176_1_alg».proof.Proof.Gen.Kernel.Frame
import proofs.«169793_j61229053772176_1_alg».proof.Proof.Gen.KernelIdeal
import proofs.«169793_j61229053772176_1_alg».proof.Proof.Gen.KernelIdeal.Frame
import proofs.«169793_j61229053772176_1_alg».proof.Proof.Gen.ReferenceIdeal
import proofs.«169793_j61229053772176_1_alg».proof.Proof.Gen.Pre_finite_inputs
import proofs.«169793_j61229053772176_1_alg».proof.Proof.RefRun
import proofs.«169793_j61229053772176_1_alg».proof.Proof.KernelRun
import proofs.«169793_j61229053772176_1_alg».proof.Proof.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's model of the arguments: the kernel program's result buffer walked back
    through its regions and host stretches, the reference's result term regrouped into its layers. -/
theorem algebraic : Cert.algebraic_KernelIdeal_ReferenceIdeal := by
  intro m ρ m' ρ' _ hagree
  refine ⟨fun c => Cert.KernelIdeal.Gen.W11 m ρ c (Proc.devRef .tc Cert.KernelIdeal.main_v74),
    Cert.KernelIdeal.Run.run_value m ρ, ?_⟩
  refine (θ_run Cert.ReferenceIdeal.defs _ _).mono (fun _ h c => ⟨(h c).1.trans ?_, (h c).2⟩)
    (Cert.ReferenceIdeal.ValueP.run (F := Ideal) m' ρ')
  refine (Cert.Layers.res_eq m' c).trans ?_
  refine Eq.trans ?_ (Cert.KernelIdeal.Fold.value m ρ c).symm
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
